-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S128x128 : Shape := ⟨2, ![128, 128]⟩
abbrev S128 : Shape := ⟨1, ![128]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg14 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg11 : FVec F S128 .f32) (main_arg12 : FVec F S128x128 .f32) (main_arg13 : FVec F S128x128 .f32) (main_arg14 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128x128 .f32 := Host.absf main_arg13
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg14 main_v63 main_v67

def fn_part2 {F : FTy → Type} [FloatOps F] (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_arg13 : FVec F S128x128 .f32) (main_arg14 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_v48 main_v49 main_v50

def fn_part1 {F : FTy → Type} [FloatOps F] (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_arg13 : FVec F S128x128 .f32) (main_arg14 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S65536x128 .f32) (main_arg1 : FVec F S65536x128 .f32) (main_arg2 : FVec F S65536x128 .f32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_arg13 : FVec F S128x128 .f32) (main_arg14 : FVec F S128 .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S65536x128 .f32 := Host.absf main_arg1
  let main_cst_0 : FVec F S_ .f32 := constant S_ .f32 0x7F800000#32
  let main_v5 : FVec F S65536x128 .f32 := broadcastInDim S65536x128 ![] bcast_S_S65536x128 main_cst_0
  let main_v6 : IVec S65536x128 1 := cmpf .olt main_v4 main_v5
  let main_c_1 : IVec S_ 1 := constantI S_ 1 1#1
  let main_v7 : IVec S_ 1 := (fun x v => Host.reduce IntOp.andi x v reducesTo_S65536x128_S_d0_1 h_S_) main_v6 main_c_1
  let main_v8 : IVec S_ 1 := andi main_v3 main_v7
  let main_v9 : FVec F S65536x128 .f32 := Host.absf main_arg2
  let main_cst_2 : FVec F S_ .f32 := constant S_ .f32 0x7F800000#32
  let main_v10 : FVec F S65536x128 .f32 := broadcastInDim S65536x128 ![] bcast_S_S65536x128 main_cst_2
  let main_v11 : IVec S65536x128 1 := cmpf .olt main_v9 main_v10
  let main_c_3 : IVec S_ 1 := constantI S_ 1 1#1
  let main_v12 : IVec S_ 1 := (fun x v => Host.reduce IntOp.andi x v reducesTo_S65536x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S65536x128 : Shape := ⟨2, ![65536, 128]⟩
abbrev S128x128 : Shape := ⟨2, ![128, 128]⟩
abbrev S128 : Shape := ⟨1, ![128]⟩
abbrev S512x128 : Shape := ⟨2, ![512, 128]⟩
abbrev S512 : Shape := ⟨1, ![512]⟩
abbrev S128x512 : Shape := ⟨2, ![128, 512]⟩
abbrev S1x512 : Shape := ⟨2, ![1, 512]⟩
abbrev S2048x128 : Shape := ⟨2, ![2048, 128]⟩
abbrev S2048x512 : Shape := ⟨2, ![2048, 512]⟩

abbrev nBuf : Space → Nat
  | .hbm => 25
  | .vmem => 13
  | .smem => 0
  | _ => 0

abbrev bufTy : (tb : Table) → Fin (tcTables nBuf tb) → BufTy
  | .hbm, ⟨0, _⟩ => ⟨S65536x128, .f32⟩
  | .hbm, ⟨1, _⟩ => ⟨S65536x128, .f32⟩
  | .hbm, ⟨2, _⟩ => ⟨S65536x128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128x128, .f32⟩
  | .hbm, ⟨14, _⟩ => ⟨S128, .f32⟩
  | .hbm, ⟨15, _⟩ => ⟨S512x128, .f32⟩
  | .hbm, ⟨16, _⟩ => ⟨S512x128, .f32⟩
  | .hbm, ⟨17, _⟩ => ⟨S512, .f32⟩
  | .hbm, ⟨18, _⟩ => ⟨S128x512, .f32⟩
  | .hbm, ⟨19, _⟩ => ⟨S128x512, .bf16⟩
  | .hbm, ⟨20, _⟩ => ⟨S128x512, .f32⟩
  | .hbm, ⟨21, _⟩ => ⟨S128x512, .bf16⟩
  | .hbm, ⟨22, _⟩ => ⟨S1x512, .f32⟩
  | .hbm, ⟨23, _⟩ => ⟨S65536x128, .f32⟩
  | .hbm, ⟨24, _⟩ => ⟨S65536x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S128x512, .bf16⟩
  | .local _ .vmem, ⟨7, _⟩ => ⟨S128x512, .bf16⟩
  | .local _ .vmem, ⟨8, _⟩ => ⟨S1x512, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8_0 : Ref sig .tc := ⟨.hbm, 23, rfl⟩
abbrev main_v8_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S128x128_S128x128_S128x128_S128x128_S512x128_d0 : Shape.Concatenates [S128x128, S128x128, S128x128, S128x128] S512x128 0
  concatenates_S128_S128_S128_S128_S512_d0 : Shape.Concatenates [S128, S128, S128, S128] S512 0
  transposes_S512x128_S128x512_1_0 : S512x128.Transposes [1, 0] S128x512
  bitsLt_bf16_f32 : FTy.bits .bf16 < FTy.bits .f32
  shapeCasts_S512_S1x512 : S512.ShapeCasts S1x512
  inb_S2048x128_S2048x128_0_0 : ∀ a, (![0, 0] : Fin 2 → Nat) a + S2048x128.size a ≤ S2048x128.size a
  h_S2048x128 : 0 < S2048x128.numel
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  slices_S2048x512_o0_0_S2048x128 : S2048x512.Slices ![0, 0] S2048x128
  slices_S2048x512_o0_128_S2048x128 : S2048x512.Slices ![0, 128] S2048x128
  slices_S2048x512_o0_256_S2048x128 : S2048x512.Slices ![0, 256] S2048x128
  slices_S2048x512_o0_384_S2048x128 : S2048x512.Slices ![0, 384] S2048x128
  dot_S2048x128_S128x512_S2048x512_1_0_0_1_n_n_wf : DotDims.WF S2048x128 S128x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S65536x128.size a
  hwx0_0 : ∀ i : grid0.Coords, EltTy.bits .f32 = 32 ∨ (Rect.block (s := S65536x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S65536x128.size a
  hwx0_1 : ∀ i : grid0.Coords, EltTy.bits .f32 = 32 ∨ (Rect.block (s := S65536x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S65536x128.size a
  hwx0_2 : ∀ i : grid0.Coords, EltTy.bits .f32 = 32 ∨ (Rect.block (s := S65536x128) S2048x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .bf16 = 32 ∨ (Rect.block (s := S128x512) S128x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x512.size a ≤ S128x512.size a
  hwx0_4 : ∀ i : grid0.Coords, EltTy.bits .bf16 = 32 ∨ (Rect.block (s := S128x512) S128x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x128.size a ≤ S65536x128.size a
  hwx0_6 : ∀ i : grid0.Coords, EltTy.bits .f32 = 32 ∨ (Rect.block (s := S65536x128) S2048x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S65536x128.size a
  hwx0_7 : ∀ i : grid0.Coords, EltTy.bits .f32 = 32 ∨ (Rect.block (s := S65536x128) S2048x128.size (cc0_transform_7 i) (hinb0_7 i)).WholeWords (EltTy.packing .f32)

variable [Facts₀]

def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S128x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8_0) S2048x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8_1) S2048x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S65536x128 : Shape := ⟨2, ![65536, 128]⟩
abbrev S128x128 : Shape := ⟨2, ![128, 128]⟩
abbrev S128 : Shape := ⟨1, ![128]⟩
abbrev S512x128 : Shape := ⟨2, ![512, 128]⟩
abbrev S512 : Shape := ⟨1, ![512]⟩
abbrev S128x512 : Shape := ⟨2, ![128, 512]⟩
abbrev S65536x512 : Shape := ⟨2, ![65536, 512]⟩
abbrev S1x512 : Shape := ⟨2, ![1, 512]⟩
abbrev S_ : Shape := ⟨0, ![]⟩

abbrev nBuf : Space → Nat
  | .hbm => 60
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S65536x128, .f32⟩
  | .hbm, ⟨2, _⟩ => ⟨S65536x128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128x128, .f32⟩
  | .hbm, ⟨14, _⟩ => ⟨S128, .f32⟩
  | .hbm, ⟨15, _⟩ => ⟨S512x128, .f32⟩
  | .hbm, ⟨16, _⟩ => ⟨S512x128, .f32⟩
  | .hbm, ⟨17, _⟩ => ⟨S512, .f32⟩
  | .hbm, ⟨18, _⟩ => ⟨S128x512, .f32⟩
  | .hbm, ⟨19, _⟩ => ⟨S65536x512, .f32⟩
  | .hbm, ⟨20, _⟩ => ⟨S128x512, .f32⟩
  | .hbm, ⟨21, _⟩ => ⟨S65536x512, .f32⟩
  | .hbm, ⟨22, _⟩ => ⟨S65536x512, .f32⟩
  | .hbm, ⟨23, _⟩ => ⟨S1x512, .f32⟩
  | .hbm, ⟨24, _⟩ => ⟨S65536x512, .f32⟩
  | .hbm, ⟨25, _⟩ => ⟨S65536x512, .f32⟩
  | .hbm, ⟨26, _⟩ => ⟨S65536x128, .f32⟩
  | .hbm, ⟨27, _⟩ => ⟨S65536x128, .f32⟩
  | .hbm, ⟨28, _⟩ => ⟨S65536x128, .f32⟩
  | .hbm, ⟨29, _⟩ => ⟨S65536x128, .f32⟩
  | .hbm, ⟨30, _⟩ => ⟨S65536x128, .f32⟩
  | .hbm, ⟨31, _⟩ => ⟨S65536x128, .f32⟩
  | .hbm, ⟨32, _⟩ => ⟨S_, .f32⟩
  | .hbm, ⟨33, _⟩ => ⟨S65536x128, .f32⟩
  | .hbm, ⟨34, _⟩ => ⟨S65536x128, .f32⟩
  | .hbm, ⟨35, _⟩ => ⟨S_, .f32⟩
  | .hbm, ⟨36, _⟩ => ⟨S65536x128, .f32⟩
  | .hbm, ⟨37, _⟩ => ⟨S65536x128, .f32⟩
  | .hbm, ⟨38, _⟩ => ⟨S65536x128, .f32⟩
  | .hbm, ⟨39, _⟩ => ⟨S65536x128, .f32⟩
  | .hbm, ⟨40, _⟩ => ⟨S_, .f32⟩
  | .hbm, ⟨41, _⟩ => ⟨S65536x128, .f32⟩
  | .hbm, ⟨42, _⟩ => ⟨S65536x128, .f32⟩
  | .hbm, ⟨43, _⟩ => ⟨S_, .f32⟩
  | .hbm, ⟨44, _⟩ => ⟨S65536x128, .f32⟩
  | .hbm, ⟨45, _⟩ => ⟨S65536x128, .f32⟩
  | .hbm, ⟨46, _⟩ => ⟨S65536x128, .f32⟩
  | .hbm, ⟨47, _⟩ => ⟨S65536x128, .f32⟩
  | .hbm, ⟨48, _⟩ => ⟨S65536x128, .f32⟩
  | .hbm, ⟨49, _⟩ => ⟨S_, .f32⟩
  | .hbm, ⟨50, _⟩ => ⟨S65536x128, .f32⟩
  | .hbm, ⟨51, _⟩ => ⟨S65536x128, .f32⟩
  | .hbm, ⟨52, _⟩ => ⟨S_, .f32⟩
  | .hbm, ⟨53, _⟩ => ⟨S65536x128, .f32⟩
  | .hbm, ⟨54, _⟩ => ⟨S65536x128, .f32⟩
  | .hbm, ⟨55, _⟩ => ⟨S65536x128, .f32⟩
  | .hbm, ⟨56, _⟩ => ⟨S65536x128, .f32⟩
  | .hbm, ⟨57, _⟩ => ⟨S65536x128, .f32⟩
  | .hbm, ⟨58, _⟩ => ⟨S65536x128, .f32⟩
  | .hbm, ⟨59, _⟩ => ⟨S65536x128, .f32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_cst_0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_1 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]

class Facts₀ : Prop where
  concatenates_S128x128_S128x128_S128x128_S128x128_S512x128_d0 : Shape.Concatenates [S128x128, S128x128, S128x128, S128x128] S512x128 0
  concatenates_S128_S128_S128_S128_S512_d0 : Shape.Concatenates [S128, S128, S128, S128] S512 0
  transposes_S512x128_S128x512_1_0 : S512x128.Transposes [1, 0] S128x512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  slices_S65536x512_S65536x128_0_0 : S65536x512.Slices ![0, 0] S65536x128
  slices_S65536x512_S65536x128_0_128 : S65536x512.Slices ![0, 128] S65536x128
  slices_S65536x512_S65536x128_0_256 : S65536x512.Slices ![0, 256] S65536x128
  slices_S65536x512_S65536x128_0_384 : S65536x512.Slices ![0, 384] S65536x128
  bcast_S_S65536x128 : S_.BroadcastsInDim S65536x128 (![] : Fin 0 → Fin S65536x128.rank)
  dot_S65536x128_S128x512_S65536x512_1_0_0_1_n_n_wf : DotDims.WF S65536x128 S128x512 S65536x512 [1] [0] [0] [1] [] []

variable [Facts₀]

def dot_S65536x128_S128x512_S65536x512_1_0_0_1_n_n : DotDims S65536x128 S128x512 S65536x512 where
  lhsContracting := [1]
  rhsContracting := [0]
  lhsNonContracting := [0]
  rhsNonContracting := [1]
  lhsBatch := []
  rhsBatch := []
  wf := dot_S65536x128_S128x512_S65536x512_1_0_0_1_n_n_wf

class Facts : Prop extends Facts₀ where

variable [Facts]
-- ==== Proof.KernelEntry.lean ====
/-
  The LSTM-cell program up to its one region, and what the region finds.

  Before the region @main runs eight host operations: the four gates' input weights are stacked along
  the rows into one 512 × 128 matrix, likewise the four hidden weights and the four bias vectors; the two
  stacked matrices are transposed to 128 × 512 and narrowed; the stacked bias is reshaped into a
  1 × 512 row. Those operations write their own eight result buffers and nothing else, so the region
  finds each of the fifteen argument arrays exactly as launched.

  The region's grid has 32 points. At point t the three batch operands (x, h, c) are staged as rows
  2048·t … 2048·t + 2047 of their arrays; the two weight matrices and the bias row are staged whole,
  once. This module names the block of the entry contents each window sees at a point and shows that
  every input window's staging buffer holds exactly that block when the body starts.
-/
import proofs.«152260_j74612171866302_2_alg».proof.Proof.Gen.Kernel.Launch
import proofs.«152260_j74612171866302_2_alg».proof.Proof.Gen.Kernel.Skeleton
import proofs.«152260_j74612171866302_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Lstm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main up to the region -/

/-- What core `c`'s buffers hold when the region is entered: the launch contents after the eight host operations. -/
abbrev atEntry (c : Dev nD) (b : Ref sig .tc) : Buf (Elt F) ((c : Thread nD τ).loc b) :=
  StableHlo.after hostOps0 (fun b => m (c, b)) b

/-- None of the eight host operations allocates a buffer. -/
theorem prefix_allocates_nothing : (hostOps0 : List (HloOp τ sig (Elt F))).Forall fun op => op.fresh = ∅ := by
  simp only [List.Forall]; repeat' constructor

/-- @main is the eight host operations followed by the region. -/
theorem main_reaches_region (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub prefix_allocates_nothing main_chain

/-- The buffers the host operations write: their eight results. -/
abbrev prefixResults : List (Ref sig .tc) := [main_v0, main_v1, main_v2, main_v3, main_v4, main_v5, main_v6, main_v7]

/-- Each host operation writes only its own result. -/
theorem prefix_writes : (hostOps0 : List (HloOp τ sig (Elt F))).Forall fun op =>
    op.writes ⊆ (prefixResults.map (Proc.devRef (τ := τ) .tc)).toFinset := by
  have key : ∀ y : Ref sig .tc, y ∈ prefixResults →
      ({Proc.devRef (τ := τ) .tc y} : Finset (DevRef τ sig)) ⊆ (prefixResults.map (Proc.devRef (τ := τ) .tc)).toFinset :=
    fun y hy => Finset.singleton_subset_iff.mpr (List.mem_toFinset.mpr (List.mem_map.mpr ⟨y, hy, rfl⟩))
  exact ⟨key main_v0 (by decide), key main_v1 (by decide), key main_v2 (by decide), key main_v3 (by decide),
    key main_v4 (by decide), key main_v5 (by decide), key main_v6 (by decide), key main_v7 (by decide)⟩

/-- A buffer that is none of the eight results is found by the region as launched. -/
theorem kept_through_prefix (c : Dev nD) (r : Ref sig .tc) (hr : r ∉ prefixResults) :
    atEntry m c r = m ((c : Thread nD τ).loc r) :=
  StableHlo.after_of_writes_sub hostOps0 _ (prefix_writes (F := F)) hr

/-! ## The windows' blocks -/

/-- Window `w`'s block at grid point `t`, read off its array's entry contents. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- Input window 0's current staging buffer holds the window's block of the entry contents at every grid point,
    whether the pipeline fetched it there or left an earlier fetch in place (the block index had not moved). -/
theorem staged0 {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's current staging buffer holds the window's block of the entry contents at every grid point,
    whether the pipeline fetched it there or left an earlier fetch in place (the block index had not moved). -/
theorem staged1 {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's current staging buffer holds the window's block of the entry contents at every grid point,
    whether the pipeline fetched it there or left an earlier fetch in place (the block index had not moved). -/
theorem staged2 {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's current staging buffer holds the window's block of the entry contents at every grid point,
    whether the pipeline fetched it there or left an earlier fetch in place (the block index had not moved). -/
theorem staged3 {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4's current staging buffer holds the window's block of the entry contents at every grid point,
    whether the pipeline fetched it there or left an earlier fetch in place (the block index had not moved). -/
theorem staged4 {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-- Input window 5's current staging buffer holds the window's block of the entry contents at every grid point,
    whether the pipeline fetched it there or left an earlier fetch in place (the block index had not moved). -/
theorem staged5 {c : Dev nD} (dat : Dat τ (Elt F) Unit ℕ (UR sig nD τ) ℕ cfg0 c) (hA : dat.A 5 = atEntry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

end Cert.Kernel.Lstm

end
-- ==== Proof.KernelBody.lean ====
/-
  One run of the LSTM-cell body on its staging buffers.

  The body loads the three batch blocks (x, h, c: 2048 × 128), the two stacked weight matrices
  (128 × 512) and the bias row (1 × 512), each whole; forms the 2048 × 512 gate pre-activations
  x·Wx + h·Wh + bias; cuts them into the four 128-wide column bands (input, forget, cell, output gate);
  and stores the new cell state  σ(f)·c + σ(i)·tanh(g)  and the new hidden state  σ(o)·tanh(c_new),
  each over the whole of its output buffer. It also loads each output buffer once before storing into it;
  those two values are never used. So after the body each output buffer holds one whole-buffer store,
  whatever it held before, and every input buffer is as it was.
-/
import proofs.«152260_j74612171866302_2_alg».proof.Proof.KernelEntry

set_option maxRecDepth 16384

noncomputable section

namespace Cert.Kernel.Lstm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each the whole of its buffer -/

abbrev batchRect : Rect S2048x128 := Rect.unit (s := S2048x128) ![0, 0] S2048x128.size inb_S2048x128_S2048x128_0_0
abbrev weightRect : Rect S128x512 := Rect.unit (s := S128x512) ![0, 0] S128x512.size inb_S128x512_S128x512_0_0
abbrev biasRect : Rect S1x512 := Rect.unit (s := S1x512) ![0, 0] S1x512.size inb_S1x512_S1x512_0_0

/-! ## What the body leaves in the two output buffers -/

/-- The new hidden state's buffer after the body: one store over the whole buffer of σ(o)·tanh(c_new). -/
def hiddenOut (x h cc : Vec F S2048x128 .f32) (wx wh : Vec F S128x512 .bf16) (b : Vec F S1x512 .f32) : Vec F S2048x128 .f32 :=
  View.canon [⟨batchRect, k0_pay3 (View.ld x batchRect) (View.ld h batchRect) (View.ld wx weightRect) (View.ld wh weightRect) (View.ld b biasRect) (View.ld cc batchRect)⟩]

/-- The new cell state's buffer after the body: one store over the whole buffer of σ(f)·c + σ(i)·tanh(g). -/
def cellOut (x h cc : Vec F S2048x128 .f32) (wx wh : Vec F S128x512 .bf16) (b : Vec F S1x512 .f32) : Vec F S2048x128 .f32 :=
  View.canon [⟨batchRect, k0_pay2 (View.ld x batchRect) (View.ld h batchRect) (View.ld wx weightRect) (View.ld wh weightRect) (View.ld b biasRect) (View.ld cc batchRect)⟩]

/-- A single store through the whole-buffer rectangle covers the buffer. -/
theorem whole_store_covers (p0 : Vec F S2048x128 .f32) (y : S2048x128.Idx) :
    ∃ pc ∈ ([⟨batchRect, p0⟩] : List (View.Piece (Elt F) S2048x128 .f32)), y ∈ pc.1.set :=
  View.cover_of_tiled [⟨batchRect, p0⟩] S2048x128.size (by rfl) y

/-! ## The body's triple -/

set_option maxHeartbeats 1000000 in
/-- From whole staging buffers — the six inputs at known contents, the two outputs at anything — the body runs to
    its end, leaves the inputs as they were and each output at its one whole-buffer store. -/
theorem body_runs (c : Dev nD) (E : Set ℕ) (i : grid0.Coords)
    (arg1 : Memref sig .tc .vmem S2048x128 .f32) (harg1 : arg1.IsWhole) (arg2 : Memref sig .tc .vmem S2048x128 .f32) (harg2 : arg2.IsWhole)
    (arg3 : Memref sig .tc .vmem S2048x128 .f32) (harg3 : arg3.IsWhole) (arg4 : Memref sig .tc .vmem S128x512 .bf16) (harg4 : arg4.IsWhole)
    (arg5 : Memref sig .tc .vmem S128x512 .bf16) (harg5 : arg5.IsWhole) (arg6 : Memref sig .tc .vmem S1x512 .f32) (harg6 : arg6.IsWhole)
    (arg7 : Memref sig .tc .vmem S2048x128 .f32) (harg7 : arg7.IsWhole) (arg8 : Memref sig .tc .vmem S2048x128 .f32) (harg8 : arg8.IsWhole)
    (x h cc : Vec F S2048x128 .f32) (wx wh : Vec F S128x512 .bf16) (b : Vec F S1x512 .f32) (K : PUnit → sProp 𝕄) :
    iprop(owns (c : Thread nD τ) arg1 fullShare x ∗ owns (c : Thread nD τ) arg2 fullShare h ∗ owns (c : Thread nD τ) arg3 fullShare cc ∗ owns (c : Thread nD τ) arg4 fullShare wx ∗ owns (c : Thread nD τ) arg5 fullShare wh ∗ owns (c : Thread nD τ) arg6 fullShare b
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare h ∗ owns (c : Thread nD τ) arg3 fullShare cc ∗ owns (c : Thread nD τ) arg4 fullShare wx ∗ owns (c : Thread nD τ) arg5 fullShare wh ∗ owns (c : Thread nD τ) arg6 fullShare b ∗ owns (c : Thread nD τ) arg7 fullShare (hiddenOut x h cc wx wh b) ∗ owns (c : Thread nD τ) arg8 fullShare (cellOut x h cc wx wh b)) -∗ K ⟨⟩))
      ⊢ wp frame (wpE (defs₀ (F := F)) Variants.none c none) E
          (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (whole_store_covers _)
  iexists _; isplitr
  swap; · iexact H7
  ipureintro
  exact View.read_writes_eq_canon _ _ _ (whole_store_covers _)

end Cert.Kernel.Lstm

end
-- ==== Proof.KernelRun.lean ====
/-
  The LSTM-cell program's whole run.

  The pipeline's bookkeeping for the one region: every window's array is what the region found; after the
  body at grid point t each input buffer still holds its block and the two output buffers hold the new
  hidden and cell states computed from the six input blocks at t. Nothing is carried from one point to
  the next. With the body's triple at every point this gives the run of @main: it terminates without a
  fault, the two result arrays end at what the 32 points wrote back, and every argument array ends as
  launched — the three batch operands because an input window is only read, the twelve weight and bias
  arrays because neither the host operations nor the region write them.
-/
import proofs.«152260_j74612171866302_2_alg».proof.Proof.KernelBody

set_option maxRecDepth 16384

noncomputable section

namespace Cert.Kernel.Lstm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- On core `c`: the arrays as the region finds them; after the body at point `t` the inputs at their blocks and
    the outputs at the new hidden and cell states of those blocks; the region's invariant the plain one (the
    scoped rest and the generator register, untouched); nothing owed; full shares. -/
def proofData (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => hiddenOut (blockAt m c 0 t) (blockAt m c 1 t) (blockAt m c 2 t) (blockAt m c 3 t) (blockAt m c 4 t) (blockAt m c 5 t)
    | ⟨7, _⟩ => cellOut (blockAt m c 0 t) (blockAt m c 1 t) (blockAt m c 2 t) (blockAt m c 3 t) (blockAt m c 4 t) (blockAt m c 5 t)
  Φ _ := Pipeline.ΦA spec0 c
  q _ := fullShare
  owed _ := 0

theorem arrays_at_entry (c : Dev nD) (w : Fin cfg0.W) : (proofData m 0 c).A w = atEntry m c (Pipeline.arrRef spec0 w) := by
  dsimp only [proofData]

theorem after0 (c : Dev nD) (t : Fin cfg0.N) : (proofData m 0 c).after 0 t = blockAt m c 0 t := by dsimp only [proofData]
theorem after1 (c : Dev nD) (t : Fin cfg0.N) : (proofData m 0 c).after 1 t = blockAt m c 1 t := by dsimp only [proofData]
theorem after2 (c : Dev nD) (t : Fin cfg0.N) : (proofData m 0 c).after 2 t = blockAt m c 2 t := by dsimp only [proofData]
theorem after3 (c : Dev nD) (t : Fin cfg0.N) : (proofData m 0 c).after 3 t = blockAt m c 3 t := by dsimp only [proofData]
theorem after4 (c : Dev nD) (t : Fin cfg0.N) : (proofData m 0 c).after 4 t = blockAt m c 4 t := by dsimp only [proofData]
theorem after5 (c : Dev nD) (t : Fin cfg0.N) : (proofData m 0 c).after 5 t = blockAt m c 5 t := by dsimp only [proofData]
theorem after6 (c : Dev nD) (t : Fin cfg0.N) : (proofData m 0 c).after 6 t = hiddenOut (blockAt m c 0 t) (blockAt m c 1 t) (blockAt m c 2 t) (blockAt m c 3 t) (blockAt m c 4 t) (blockAt m c 5 t) := by dsimp only [proofData]
theorem after7 (c : Dev nD) (t : Fin cfg0.N) : (proofData m 0 c).after 7 t = cellOut (blockAt m c 0 t) (blockAt m c 1 t) (blockAt m c 2 t) (blockAt m c 3 t) (blockAt m c 4 t) (blockAt m c 5 t) := by dsimp only [proofData]

theorem before0 (c : Dev nD) (t : Fin cfg0.N) (d) : (proofData m 0 c).before 0 t d = blockAt m c 0 t :=
  staged0 m (proofData m 0 c) (arrays_at_entry m c 0) (after0 m c) t d
theorem before1 (c : Dev nD) (t : Fin cfg0.N) (d) : (proofData m 0 c).before 1 t d = blockAt m c 1 t :=
  staged1 m (proofData m 0 c) (arrays_at_entry m c 1) (after1 m c) t d
theorem before2 (c : Dev nD) (t : Fin cfg0.N) (d) : (proofData m 0 c).before 2 t d = blockAt m c 2 t :=
  staged2 m (proofData m 0 c) (arrays_at_entry m c 2) (after2 m c) t d
theorem before3 (c : Dev nD) (t : Fin cfg0.N) (d) : (proofData m 0 c).before 3 t d = blockAt m c 3 t :=
  staged3 m (proofData m 0 c) (arrays_at_entry m c 3) (after3 m c) t d
theorem before4 (c : Dev nD) (t : Fin cfg0.N) (d) : (proofData m 0 c).before 4 t d = blockAt m c 4 t :=
  staged4 m (proofData m 0 c) (arrays_at_entry m c 4) (after4 m c) t d
theorem before5 (c : Dev nD) (t : Fin cfg0.N) (d) : (proofData m 0 c).before 5 t d = blockAt m c 5 t :=
  staged5 m (proofData m 0 c) (arrays_at_entry m c 5) (after5 m c) t d

/-! ## The body obligation at a generic point -/

/-- What the body is called with at point `t`, the eight windows one by one, -/
def bodyPre (c : Dev nD) (t : Fin cfg0.N) : sProp 𝕄 :=
  iprop((proofData m 0 c).Φ t.castSucc ∗ (proofData m 0 c).owesAt () t.castSucc
    ∗ (∃ d, owns (c : Thread nD τ) (st0_0 t) fullShare ((proofData m 0 c).before 0 t d))
    ∗ (∃ d, owns (c : Thread nD τ) (st0_1 t) fullShare ((proofData m 0 c).before 1 t d))
    ∗ (∃ d, owns (c : Thread nD τ) (st0_2 t) fullShare ((proofData m 0 c).before 2 t d))
    ∗ (∃ d, owns (c : Thread nD τ) (st0_3 t) fullShare ((proofData m 0 c).before 3 t d))
    ∗ (∃ d, owns (c : Thread nD τ) (st0_4 t) fullShare ((proofData m 0 c).before 4 t d))
    ∗ (∃ d, owns (c : Thread nD τ) (st0_5 t) fullShare ((proofData m 0 c).before 5 t d))
    ∗ (∃ d, owns (c : Thread nD τ) (st0_6 t) fullShare ((proofData m 0 c).before 6 t d))
    ∗ (∃ d, owns (c : Thread nD τ) (st0_7 t) fullShare ((proofData m 0 c).before 7 t d)))

/-- and what it returns. -/
def bodyPost (c : Dev nD) (t : Fin cfg0.N) : sProp 𝕄 :=
  iprop((proofData m 0 c).Φ t.succ ∗ (proofData m 0 c).owesAt () t.succ
    ∗ owns (c : Thread nD τ) (st0_0 t) fullShare ((proofData m 0 c).after 0 t)
    ∗ owns (c : Thread nD τ) (st0_1 t) fullShare ((proofData m 0 c).after 1 t)
    ∗ owns (c : Thread nD τ) (st0_2 t) fullShare ((proofData m 0 c).after 2 t)
    ∗ owns (c : Thread nD τ) (st0_3 t) fullShare ((proofData m 0 c).after 3 t)
    ∗ owns (c : Thread nD τ) (st0_4 t) fullShare ((proofData m 0 c).after 4 t)
    ∗ owns (c : Thread nD τ) (st0_5 t) fullShare ((proofData m 0 c).after 5 t)
    ∗ owns (c : Thread nD τ) (st0_6 t) fullShare ((proofData m 0 c).after 6 t)
    ∗ owns (c : Thread nD τ) (st0_7 t) fullShare ((proofData m 0 c).after 7 t))

/-- At any point the six input buffers hold their blocks, so the body's triple applies; the invariant and
    the core's debts pass through unread. -/
theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (proofData m 0 c).Φ t.succ = (proofData m 0 c).Φ t.castSucc from rfl,
    show (proofData m 0 c).owesAt () t.succ = (proofData m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_runs c Set.univ (grid0.coords t) _ _ _ _ _ _ _ _ _ _ _ _ _ _ _ _ (blockAt m c 0 t) (blockAt m c 1 t) (blockAt m c 2 t) (blockAt m c 3 t) (blockAt m c 4 t) (blockAt m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (proofData (F := F) m 0 c) (defs₀ (F := F)) Variants.none () Set.univ := fun t => by
  rw [bigSep_W0, bigSep_W0]
  exact body_at_point m c t

/-! ## The run -/

set_option backward.isDefEq.respectTransparency.types false in
/-- Every weakly fair execution of @main terminates, and in the final state every array of the pipeline is what
    the library computes from the proof data and every other unscoped buffer is as the region found it. -/
theorem run_region : θ_run defs (onTc (τ := τ) (main (F := F))) (s₀ m ρ) (Pipeline.FramePost cfgs (proofData m) 0 (atEntry m)) :=
  Pipeline.θ_run_frame cfgs (proofData m) (0 : Fin 1) launch0 defs₀ Variants.none m ρ main
    (hbody := fun c => (body_obligation m c).loose) (hshare := fun c => (proofData m 0 c).share_full fun _ => rfl)
    (howed := fun _ _ => rfl) (V := atEntry m) (hmain := main_reaches_region m Variants.none) (hA := arrays_at_entry m) (hΦ := fun _ _ => rfl)

/-- The same run read at the buffers the claims speak of: the two result arrays at what the points wrote back,
    each of the fifteen argument arrays as launched. -/
theorem run_named : θ_run defs (onTc (τ := τ) (main (F := F))) ⟨m, fun _ => 0, ρ⟩ (fun r => ∀ c : Dev nD,
      r.2.mem ((c.tc : Thread nD τ).loc main_v8_0) = (proofData m 0 c).arrAt 6 cfg0.N
      ∧ r.2.mem ((c.tc : Thread nD τ).loc main_v8_1) = (proofData m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(h c).1 6, (h c).1 7,
      ((h c).1 0).trans (((proofData m 0 c).arrAt_in 0 rfl _).trans ((arrays_at_entry m c 0).trans (kept_through_prefix m c main_arg0 (by decide)))),
      ((h c).1 1).trans (((proofData m 0 c).arrAt_in 1 rfl _).trans ((arrays_at_entry m c 1).trans (kept_through_prefix m c main_arg1 (by decide)))),
      ((h c).1 2).trans (((proofData m 0 c).arrAt_in 2 rfl _).trans ((arrays_at_entry m c 2).trans (kept_through_prefix m c main_arg2 (by decide)))),
      ((h c).2 main_arg3 (Pipeline.mem_restRefs_of main_arg3 (by decide) (by decide))).trans (kept_through_prefix m c main_arg3 (by decide)),
      ((h c).2 main_arg4 (Pipeline.mem_restRefs_of main_arg4 (by decide) (by decide))).trans (kept_through_prefix m c main_arg4 (by decide)),
      ((h c).2 main_arg5 (Pipeline.mem_restRefs_of main_arg5 (by decide) (by decide))).trans (kept_through_prefix m c main_arg5 (by decide)),
      ((h c).2 main_arg6 (Pipeline.mem_restRefs_of main_arg6 (by decide) (by decide))).trans (kept_through_prefix m c main_arg6 (by decide)),
      ((h c).2 main_arg7 (Pipeline.mem_restRefs_of main_arg7 (by decide) (by decide))).trans (kept_through_prefix m c main_arg7 (by decide)),
      ((h c).2 main_arg8 (Pipeline.mem_restRefs_of main_arg8 (by decide) (by decide))).trans (kept_through_prefix m c main_arg8 (by decide)),
      ((h c).2 main_arg9 (Pipeline.mem_restRefs_of main_arg9 (by decide) (by decide))).trans (kept_through_prefix m c main_arg9 (by decide)),
      ((h c).2 main_arg10 (Pipeline.mem_restRefs_of main_arg10 (by decide) (by decide))).trans (kept_through_prefix m c main_arg10 (by decide)),
      ((h c).2 main_arg11 (Pipeline.mem_restRefs_of main_arg11 (by decide) (by decide))).trans (kept_through_prefix m c main_arg11 (by decide)),
      ((h c).2 main_arg12 (Pipeline.mem_restRefs_of main_arg12 (by decide) (by decide))).trans (kept_through_prefix m c main_arg12 (by decide)),
      ((h c).2 main_arg13 (Pipeline.mem_restRefs_of main_arg13 (by decide) (by decide))).trans (kept_through_prefix m c main_arg13 (by decide)),
      ((h c).2 main_arg14 (Pipeline.mem_restRefs_of main_arg14 (by decide) (by decide))).trans (kept_through_prefix m c main_arg14 (by decide))⟩) (run_region m ρ)

/-- The frame: @main runs to its end and leaves the fifteen argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => (h c).2.2) (run_named m ρ)

end Cert.Kernel.Lstm

end
-- ==== Proof.KernelIdealEntry.lean ====
/-
  The LSTM-cell program up to its one region, and what the region finds.

  Before the region @main runs eight host operations: the four gates' input weights are stacked along
  the rows into one 512 × 128 matrix, likewise the four hidden weights and the four bias vectors; the two
  stacked matrices are transposed to 128 × 512 and narrowed; the stacked bias is reshaped into a
  1 × 512 row. Those operations write their own eight result buffers and nothing else, so the region
  finds each of the fifteen argument arrays exactly as launched.

  The region's grid has 32 points. At point t the three batch operands (x, h, c) are staged as rows
  2048·t … 2048·t + 2047 of their arrays; the two weight matrices and the bias row are staged whole,
  once. This module names the block of the entry contents each window sees at a point and shows that
  every input window's staging buffer holds exactly that block when the body starts.
-/
import proofs.«152260_j74612171866302_2_alg».proof.Proof.Gen.KernelIdeal.Launch
import proofs.«152260_j74612171866302_2_alg».proof.Proof.Gen.KernelIdeal.Skeleton
import proofs.«152260_j74612171866302_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Lstm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main up to the region -/

/-- What core `c`'s buffers hold when the region is entered: the launch contents after the eight host operations. -/
abbrev atEntry (c : Dev nD) (b : Ref sig .tc) : Buf (Elt F) ((c : Thread nD τ).loc b) :=
  StableHlo.after hostOps0 (fun b => m (c, b)) b

/-- None of the eight host operations allocates a buffer. -/
theorem prefix_allocates_nothing : (hostOps0 : List (HloOp τ sig (Elt F))).Forall fun op => op.fresh = ∅ := by
  simp only [List.Forall]; repeat' constructor

/-- @main is the eight host operations followed by the region. -/
theorem main_reaches_region (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub prefix_allocates_nothing main_chain

/-- The buffers the host operations write: their eight results. -/
abbrev prefixResults : List (Ref sig .tc) := [main_v0, main_v1, main_v2, main_v3, main_v4, main_v5, main_v6, main_v7]

/-- Each host operation writes only its own result. -/
theorem prefix_writes : (hostOps0 : List (HloOp τ sig (Elt F))).Forall fun op =>
    op.writes ⊆ (prefixResults.map (Proc.devRef (τ := τ) .tc)).toFinset := by
  have key : ∀ y : Ref sig .tc, y ∈ prefixResults →
      ({Proc.devRef (τ := τ) .tc y} : Finset (DevRef τ sig)) ⊆ (prefixResults.map (Proc.devRef (τ := τ) .tc)).toFinset :=
    fun y hy => Finset.singleton_subset_iff.mpr (List.mem_toFinset.mpr (List.mem_map.mpr ⟨y, hy, rfl⟩))
  exact ⟨key main_v0 (by decide), key main_v1 (by decide), key main_v2 (by decide), key main_v3 (by decide),
    key main_v4 (by decide), key main_v5 (by decide), key main_v6 (by decide), key main_v7 (by decide)⟩

/-- A buffer that is none of the eight results is found by the region as launched. -/
theorem kept_through_prefix (c : Dev nD) (r : Ref sig .tc) (hr : r ∉ prefixResults) :
    atEntry m c r = m ((c : Thread nD τ).loc r) :=
  StableHlo.after_of_writes_sub hostOps0 _ (prefix_writes (F := F)) hr

/-! ## The windows' blocks -/

/-- Window `w`'s block at grid point `t`, read off its array's entry contents. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- Input window 0's current staging buffer holds the window's block of the entry contents at every grid point,
    whether the pipeline fetched it there or left an earlier fetch in place (the block index had not moved). -/
theorem staged0 {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's current staging buffer holds the window's block of the entry contents at every grid point,
    whether the pipeline fetched it there or left an earlier fetch in place (the block index had not moved). -/
theorem staged1 {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's current staging buffer holds the window's block of the entry contents at every grid point,
    whether the pipeline fetched it there or left an earlier fetch in place (the block index had not moved). -/
theorem staged2 {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's current staging buffer holds the window's block of the entry contents at every grid point,
    whether the pipeline fetched it there or left an earlier fetch in place (the block index had not moved). -/
theorem staged3 {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4's current staging buffer holds the window's block of the entry contents at every grid point,
    whether the pipeline fetched it there or left an earlier fetch in place (the block index had not moved). -/
theorem staged4 {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-- Input window 5's current staging buffer holds the window's block of the entry contents at every grid point,
    whether the pipeline fetched it there or left an earlier fetch in place (the block index had not moved). -/
theorem staged5 {c : Dev nD} (dat : Dat τ (Elt F) Unit ℕ (UR sig nD τ) ℕ cfg0 c) (hA : dat.A 5 = atEntry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

end Cert.KernelIdeal.Lstm

end
-- ==== Proof.KernelIdealBody.lean ====
/-
  One run of the LSTM-cell body on its staging buffers.

  The body loads the three batch blocks (x, h, c: 2048 × 128), the two stacked weight matrices
  (128 × 512) and the bias row (1 × 512), each whole; forms the 2048 × 512 gate pre-activations
  x·Wx + h·Wh + bias; cuts them into the four 128-wide column bands (input, forget, cell, output gate);
  and stores the new cell state  σ(f)·c + σ(i)·tanh(g)  and the new hidden state  σ(o)·tanh(c_new),
  each over the whole of its output buffer. It also loads each output buffer once before storing into it;
  those two values are never used. So after the body each output buffer holds one whole-buffer store,
  whatever it held before, and every input buffer is as it was.
-/
import proofs.«152260_j74612171866302_2_alg».proof.Proof.KernelIdealEntry

set_option maxRecDepth 16384

noncomputable section

namespace Cert.KernelIdeal.Lstm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each the whole of its buffer -/

abbrev batchRect : Rect S2048x128 := Rect.unit (s := S2048x128) ![0, 0] S2048x128.size inb_S2048x128_S2048x128_0_0
abbrev weightRect : Rect S128x512 := Rect.unit (s := S128x512) ![0, 0] S128x512.size inb_S128x512_S128x512_0_0
abbrev biasRect : Rect S1x512 := Rect.unit (s := S1x512) ![0, 0] S1x512.size inb_S1x512_S1x512_0_0

/-! ## What the body leaves in the two output buffers -/

/-- The new hidden state's buffer after the body: one store over the whole buffer of σ(o)·tanh(c_new). -/
def hiddenOut (x h cc : Vec F S2048x128 .f32) (wx wh : Vec F S128x512 .bf16) (b : Vec F S1x512 .f32) : Vec F S2048x128 .f32 :=
  View.canon [⟨batchRect, k0_pay3 (View.ld x batchRect) (View.ld h batchRect) (View.ld wx weightRect) (View.ld wh weightRect) (View.ld b biasRect) (View.ld cc batchRect)⟩]

/-- The new cell state's buffer after the body: one store over the whole buffer of σ(f)·c + σ(i)·tanh(g). -/
def cellOut (x h cc : Vec F S2048x128 .f32) (wx wh : Vec F S128x512 .bf16) (b : Vec F S1x512 .f32) : Vec F S2048x128 .f32 :=
  View.canon [⟨batchRect, k0_pay2 (View.ld x batchRect) (View.ld h batchRect) (View.ld wx weightRect) (View.ld wh weightRect) (View.ld b biasRect) (View.ld cc batchRect)⟩]

/-- A single store through the whole-buffer rectangle covers the buffer. -/
theorem whole_store_covers (p0 : Vec F S2048x128 .f32) (y : S2048x128.Idx) :
    ∃ pc ∈ ([⟨batchRect, p0⟩] : List (View.Piece (Elt F) S2048x128 .f32)), y ∈ pc.1.set :=
  View.cover_of_tiled [⟨batchRect, p0⟩] S2048x128.size (by rfl) y

/-! ## The body's triple -/

set_option maxHeartbeats 1000000 in
/-- From whole staging buffers — the six inputs at known contents, the two outputs at anything — the body runs to
    its end, leaves the inputs as they were and each output at its one whole-buffer store. -/
theorem body_runs (c : Dev nD) (E : Set ℕ) (i : grid0.Coords)
    (arg1 : Memref sig .tc .vmem S2048x128 .f32) (harg1 : arg1.IsWhole) (arg2 : Memref sig .tc .vmem S2048x128 .f32) (harg2 : arg2.IsWhole)
    (arg3 : Memref sig .tc .vmem S2048x128 .f32) (harg3 : arg3.IsWhole) (arg4 : Memref sig .tc .vmem S128x512 .bf16) (harg4 : arg4.IsWhole)
    (arg5 : Memref sig .tc .vmem S128x512 .bf16) (harg5 : arg5.IsWhole) (arg6 : Memref sig .tc .vmem S1x512 .f32) (harg6 : arg6.IsWhole)
    (arg7 : Memref sig .tc .vmem S2048x128 .f32) (harg7 : arg7.IsWhole) (arg8 : Memref sig .tc .vmem S2048x128 .f32) (harg8 : arg8.IsWhole)
    (x h cc : Vec F S2048x128 .f32) (wx wh : Vec F S128x512 .bf16) (b : Vec F S1x512 .f32) (K : PUnit → sProp 𝕄) :
    iprop(owns (c : Thread nD τ) arg1 fullShare x ∗ owns (c : Thread nD τ) arg2 fullShare h ∗ owns (c : Thread nD τ) arg3 fullShare cc ∗ owns (c : Thread nD τ) arg4 fullShare wx ∗ owns (c : Thread nD τ) arg5 fullShare wh ∗ owns (c : Thread nD τ) arg6 fullShare b
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare h ∗ owns (c : Thread nD τ) arg3 fullShare cc ∗ owns (c : Thread nD τ) arg4 fullShare wx ∗ owns (c : Thread nD τ) arg5 fullShare wh ∗ owns (c : Thread nD τ) arg6 fullShare b ∗ owns (c : Thread nD τ) arg7 fullShare (hiddenOut x h cc wx wh b) ∗ owns (c : Thread nD τ) arg8 fullShare (cellOut x h cc wx wh b)) -∗ K ⟨⟩))
      ⊢ wp frame (wpE (defs₀ (F := F)) Variants.none c none) E
          (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (whole_store_covers _)
  iexists _; isplitr
  swap; · iexact H7
  ipureintro
  exact View.read_writes_eq_canon _ _ _ (whole_store_covers _)

end Cert.KernelIdeal.Lstm

end
-- ==== Proof.KernelIdealRun.lean ====
/-
  The LSTM-cell program's whole run.

  The pipeline's bookkeeping for the one region: every window's array is what the region found; after the
  body at grid point t each input buffer still holds its block and the two output buffers hold the new
  hidden and cell states computed from the six input blocks at t. Nothing is carried from one point to
  the next. With the body's triple at every point this gives the run of @main: it terminates without a
  fault, the two result arrays end at what the 32 points wrote back, and every argument array ends as
  launched — the three batch operands because an input window is only read, the twelve weight and bias
  arrays because neither the host operations nor the region write them.
-/
import proofs.«152260_j74612171866302_2_alg».proof.Proof.KernelIdealBody

set_option maxRecDepth 16384

noncomputable section

namespace Cert.KernelIdeal.Lstm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- On core `c`: the arrays as the region finds them; after the body at point `t` the inputs at their blocks and
    the outputs at the new hidden and cell states of those blocks; the region's invariant the plain one (the
    scoped rest and the generator register, untouched); nothing owed; full shares. -/
def proofData (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => hiddenOut (blockAt m c 0 t) (blockAt m c 1 t) (blockAt m c 2 t) (blockAt m c 3 t) (blockAt m c 4 t) (blockAt m c 5 t)
    | ⟨7, _⟩ => cellOut (blockAt m c 0 t) (blockAt m c 1 t) (blockAt m c 2 t) (blockAt m c 3 t) (blockAt m c 4 t) (blockAt m c 5 t)
  Φ _ := Pipeline.ΦA spec0 c
  q _ := fullShare
  owed _ := 0

theorem arrays_at_entry (c : Dev nD) (w : Fin cfg0.W) : (proofData m 0 c).A w = atEntry m c (Pipeline.arrRef spec0 w) := by
  dsimp only [proofData]

theorem after0 (c : Dev nD) (t : Fin cfg0.N) : (proofData m 0 c).after 0 t = blockAt m c 0 t := by dsimp only [proofData]
theorem after1 (c : Dev nD) (t : Fin cfg0.N) : (proofData m 0 c).after 1 t = blockAt m c 1 t := by dsimp only [proofData]
theorem after2 (c : Dev nD) (t : Fin cfg0.N) : (proofData m 0 c).after 2 t = blockAt m c 2 t := by dsimp only [proofData]
theorem after3 (c : Dev nD) (t : Fin cfg0.N) : (proofData m 0 c).after 3 t = blockAt m c 3 t := by dsimp only [proofData]
theorem after4 (c : Dev nD) (t : Fin cfg0.N) : (proofData m 0 c).after 4 t = blockAt m c 4 t := by dsimp only [proofData]
theorem after5 (c : Dev nD) (t : Fin cfg0.N) : (proofData m 0 c).after 5 t = blockAt m c 5 t := by dsimp only [proofData]
theorem after6 (c : Dev nD) (t : Fin cfg0.N) : (proofData m 0 c).after 6 t = hiddenOut (blockAt m c 0 t) (blockAt m c 1 t) (blockAt m c 2 t) (blockAt m c 3 t) (blockAt m c 4 t) (blockAt m c 5 t) := by dsimp only [proofData]
theorem after7 (c : Dev nD) (t : Fin cfg0.N) : (proofData m 0 c).after 7 t = cellOut (blockAt m c 0 t) (blockAt m c 1 t) (blockAt m c 2 t) (blockAt m c 3 t) (blockAt m c 4 t) (blockAt m c 5 t) := by dsimp only [proofData]

theorem before0 (c : Dev nD) (t : Fin cfg0.N) (d) : (proofData m 0 c).before 0 t d = blockAt m c 0 t :=
  staged0 m (proofData m 0 c) (arrays_at_entry m c 0) (after0 m c) t d
theorem before1 (c : Dev nD) (t : Fin cfg0.N) (d) : (proofData m 0 c).before 1 t d = blockAt m c 1 t :=
  staged1 m (proofData m 0 c) (arrays_at_entry m c 1) (after1 m c) t d
theorem before2 (c : Dev nD) (t : Fin cfg0.N) (d) : (proofData m 0 c).before 2 t d = blockAt m c 2 t :=
  staged2 m (proofData m 0 c) (arrays_at_entry m c 2) (after2 m c) t d
theorem before3 (c : Dev nD) (t : Fin cfg0.N) (d) : (proofData m 0 c).before 3 t d = blockAt m c 3 t :=
  staged3 m (proofData m 0 c) (arrays_at_entry m c 3) (after3 m c) t d
theorem before4 (c : Dev nD) (t : Fin cfg0.N) (d) : (proofData m 0 c).before 4 t d = blockAt m c 4 t :=
  staged4 m (proofData m 0 c) (arrays_at_entry m c 4) (after4 m c) t d
theorem before5 (c : Dev nD) (t : Fin cfg0.N) (d) : (proofData m 0 c).before 5 t d = blockAt m c 5 t :=
  staged5 m (proofData m 0 c) (arrays_at_entry m c 5) (after5 m c) t d

/-! ## The body obligation at a generic point -/

/-- What the body is called with at point `t`, the eight windows one by one, -/
def bodyPre (c : Dev nD) (t : Fin cfg0.N) : sProp 𝕄 :=
  iprop((proofData m 0 c).Φ t.castSucc ∗ (proofData m 0 c).owesAt () t.castSucc
    ∗ (∃ d, owns (c : Thread nD τ) (st0_0 t) fullShare ((proofData m 0 c).before 0 t d))
    ∗ (∃ d, owns (c : Thread nD τ) (st0_1 t) fullShare ((proofData m 0 c).before 1 t d))
    ∗ (∃ d, owns (c : Thread nD τ) (st0_2 t) fullShare ((proofData m 0 c).before 2 t d))
    ∗ (∃ d, owns (c : Thread nD τ) (st0_3 t) fullShare ((proofData m 0 c).before 3 t d))
    ∗ (∃ d, owns (c : Thread nD τ) (st0_4 t) fullShare ((proofData m 0 c).before 4 t d))
    ∗ (∃ d, owns (c : Thread nD τ) (st0_5 t) fullShare ((proofData m 0 c).before 5 t d))
    ∗ (∃ d, owns (c : Thread nD τ) (st0_6 t) fullShare ((proofData m 0 c).before 6 t d))
    ∗ (∃ d, owns (c : Thread nD τ) (st0_7 t) fullShare ((proofData m 0 c).before 7 t d)))

/-- and what it returns. -/
def bodyPost (c : Dev nD) (t : Fin cfg0.N) : sProp 𝕄 :=
  iprop((proofData m 0 c).Φ t.succ ∗ (proofData m 0 c).owesAt () t.succ
    ∗ owns (c : Thread nD τ) (st0_0 t) fullShare ((proofData m 0 c).after 0 t)
    ∗ owns (c : Thread nD τ) (st0_1 t) fullShare ((proofData m 0 c).after 1 t)
    ∗ owns (c : Thread nD τ) (st0_2 t) fullShare ((proofData m 0 c).after 2 t)
    ∗ owns (c : Thread nD τ) (st0_3 t) fullShare ((proofData m 0 c).after 3 t)
    ∗ owns (c : Thread nD τ) (st0_4 t) fullShare ((proofData m 0 c).after 4 t)
    ∗ owns (c : Thread nD τ) (st0_5 t) fullShare ((proofData m 0 c).after 5 t)
    ∗ owns (c : Thread nD τ) (st0_6 t) fullShare ((proofData m 0 c).after 6 t)
    ∗ owns (c : Thread nD τ) (st0_7 t) fullShare ((proofData m 0 c).after 7 t))

/-- At any point the six input buffers hold their blocks, so the body's triple applies; the invariant and
    the core's debts pass through unread. -/
theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (proofData m 0 c).Φ t.succ = (proofData m 0 c).Φ t.castSucc from rfl,
    show (proofData m 0 c).owesAt () t.succ = (proofData m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_runs c Set.univ (grid0.coords t) _ _ _ _ _ _ _ _ _ _ _ _ _ _ _ _ (blockAt m c 0 t) (blockAt m c 1 t) (blockAt m c 2 t) (blockAt m c 3 t) (blockAt m c 4 t) (blockAt m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (proofData (F := F) m 0 c) (defs₀ (F := F)) Variants.none () Set.univ := fun t => by
  rw [bigSep_W0, bigSep_W0]
  exact body_at_point m c t

/-! ## The run -/

set_option backward.isDefEq.respectTransparency.types false in
/-- Every weakly fair execution of @main terminates, and in the final state every array of the pipeline is what
    the library computes from the proof data and every other unscoped buffer is as the region found it. -/
theorem run_region : θ_run defs (onTc (τ := τ) (main (F := F))) (s₀ m ρ) (Pipeline.FramePost cfgs (proofData m) 0 (atEntry m)) :=
  Pipeline.θ_run_frame cfgs (proofData m) (0 : Fin 1) launch0 defs₀ Variants.none m ρ main
    (hbody := fun c => (body_obligation m c).loose) (hshare := fun c => (proofData m 0 c).share_full fun _ => rfl)
    (howed := fun _ _ => rfl) (V := atEntry m) (hmain := main_reaches_region m Variants.none) (hA := arrays_at_entry m) (hΦ := fun _ _ => rfl)

/-- The same run read at the buffers the claims speak of: the two result arrays at what the points wrote back,
    each of the fifteen argument arrays as launched. -/
theorem run_named : θ_run defs (onTc (τ := τ) (main (F := F))) ⟨m, fun _ => 0, ρ⟩ (fun r => ∀ c : Dev nD,
      r.2.mem ((c.tc : Thread nD τ).loc main_v8_0) = (proofData m 0 c).arrAt 6 cfg0.N
      ∧ r.2.mem ((c.tc : Thread nD τ).loc main_v8_1) = (proofData m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(h c).1 6, (h c).1 7,
      ((h c).1 0).trans (((proofData m 0 c).arrAt_in 0 rfl _).trans ((arrays_at_entry m c 0).trans (kept_through_prefix m c main_arg0 (by decide)))),
      ((h c).1 1).trans (((proofData m 0 c).arrAt_in 1 rfl _).trans ((arrays_at_entry m c 1).trans (kept_through_prefix m c main_arg1 (by decide)))),
      ((h c).1 2).trans (((proofData m 0 c).arrAt_in 2 rfl _).trans ((arrays_at_entry m c 2).trans (kept_through_prefix m c main_arg2 (by decide)))),
      ((h c).2 main_arg3 (Pipeline.mem_restRefs_of main_arg3 (by decide) (by decide))).trans (kept_through_prefix m c main_arg3 (by decide)),
      ((h c).2 main_arg4 (Pipeline.mem_restRefs_of main_arg4 (by decide) (by decide))).trans (kept_through_prefix m c main_arg4 (by decide)),
      ((h c).2 main_arg5 (Pipeline.mem_restRefs_of main_arg5 (by decide) (by decide))).trans (kept_through_prefix m c main_arg5 (by decide)),
      ((h c).2 main_arg6 (Pipeline.mem_restRefs_of main_arg6 (by decide) (by decide))).trans (kept_through_prefix m c main_arg6 (by decide)),
      ((h c).2 main_arg7 (Pipeline.mem_restRefs_of main_arg7 (by decide) (by decide))).trans (kept_through_prefix m c main_arg7 (by decide)),
      ((h c).2 main_arg8 (Pipeline.mem_restRefs_of main_arg8 (by decide) (by decide))).trans (kept_through_prefix m c main_arg8 (by decide)),
      ((h c).2 main_arg9 (Pipeline.mem_restRefs_of main_arg9 (by decide) (by decide))).trans (kept_through_prefix m c main_arg9 (by decide)),
      ((h c).2 main_arg10 (Pipeline.mem_restRefs_of main_arg10 (by decide) (by decide))).trans (kept_through_prefix m c main_arg10 (by decide)),
      ((h c).2 main_arg11 (Pipeline.mem_restRefs_of main_arg11 (by decide) (by decide))).trans (kept_through_prefix m c main_arg11 (by decide)),
      ((h c).2 main_arg12 (Pipeline.mem_restRefs_of main_arg12 (by decide) (by decide))).trans (kept_through_prefix m c main_arg12 (by decide)),
      ((h c).2 main_arg13 (Pipeline.mem_restRefs_of main_arg13 (by decide) (by decide))).trans (kept_through_prefix m c main_arg13 (by decide)),
      ((h c).2 main_arg14 (Pipeline.mem_restRefs_of main_arg14 (by decide) (by decide))).trans (kept_through_prefix m c main_arg14 (by decide))⟩) (run_region m ρ)

/-- The frame: @main runs to its end and leaves the fifteen argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => (h c).2.2) (run_named m ρ)

end Cert.KernelIdeal.Lstm

end
-- ==== Proof.LstmCell.lean ====
/-
  The LSTM cell as one function on the extended reals.

  For a batch row r and a lane q < 128, with the four gates' weights stacked column-wise into two
  128 × 512 matrices Wx, Wh and the four biases stacked into one vector of 512:

      z(r, j)   = Σₖ x(r,k)·Wx(k,j)  +  Σₖ h(r,k)·Wh(k,j)  +  bias(j)            (j < 512)
      c'(r, q)  = σ(z(r, 128+q))·c(r,q)  +  σ(z(r, q))·tanh(z(r, 256+q))
      h'(r, q)  = σ(z(r, 384+q))·tanh(c'(r, q))

  where σ(u) = 1 / (1 + e^(−u)) with the conventions of the extended reals (σ(−∞) = 0, σ(+∞) = 1).
  Columns 0…127 are the input gate, 128…255 the forget gate, 256…383 the cell candidate, 384…511 the
  output gate. Both programs compute exactly these terms, with the sums in this grouping; no law of
  arithmetic is needed to join them, only that the kernel's sigmoid operation and the host's spelled-out
  quotient are the same function, and that the pattern 0x3F800000 denotes 1.
-/
import Idealize.ShloMosaic.PureOps.Ideal
import Idealize.ShloMosaic.PureOps.Ideal.Laws
import Idealize.ShloMosaic.PureOps.IdealRules
import Idealize.ShloMosaic.Lib.ValueIdx

noncomputable section

namespace Cert.LstmCell

open Idealize.ShloMosaic Idealize.ShloMosaic.ValueIdx

/-- A batch operand or a result: 65536 rows of 128 lanes. -/
abbrev Rows : Shape := ⟨2, ![65536, 128]⟩
/-- Four gates' weights side by side: 128 × 512. -/
abbrev Stacked : Shape := ⟨2, ![128, 512]⟩
/-- Four gates' biases end to end. -/
abbrev StackedBias : Shape := ⟨1, ![512]⟩

/-- Lane `q`'s column in each gate's band of the 512 stacked columns. -/
abbrev inputCol (q : Fin 128) : Fin 512 := ⟨0 + q.val, by omega⟩
abbrev forgetCol (q : Fin 128) : Fin 512 := ⟨128 + q.val, by omega⟩
abbrev cellCol (q : Fin 128) : Fin 512 := ⟨256 + q.val, by omega⟩
abbrev outputCol (q : Fin 128) : Fin 512 := ⟨384 + q.val, by omega⟩

section
variable (x h c : Rows.Idx → EReal) (wx wh : Stacked.Idx → EReal) (b : StackedBias.Idx → EReal)

/-- The gate pre-activation of row `r` at stacked column `j`. -/
def preact (r : Fin 65536) (j : Fin 512) : EReal :=
  ((∑ k : Fin 128, x (ix2 r k) * wx (ix2 k j)) + ∑ k : Fin 128, h (ix2 r k) * wh (ix2 k j)) + b (ix1 j)

/-- The new cell state at row `r`, lane `q`. -/
def newCell (r : Fin 65536) (q : Fin 128) : EReal :=
  Ideal.logistic (preact x h wx wh b r (forgetCol q)) * c (ix2 r q)
    + Ideal.logistic (preact x h wx wh b r (inputCol q)) * Ideal.tanh (preact x h wx wh b r (cellCol q))

/-- The new hidden state at row `r`, lane `q`. -/
def newHidden (r : Fin 65536) (q : Fin 128) : EReal :=
  Ideal.logistic (preact x h wx wh b r (outputCol q)) * Ideal.tanh (newCell x h c wx wh b r q)

/-- The two results as whole arrays. -/
def cellArray : Rows.Idx → EReal := fun i => newCell x h c wx wh b (i 0) (i 1)
def hiddenArray : Rows.Idx → EReal := fun i => newHidden x h c wx wh b (i 0) (i 1)

end

/-- The single-precision pattern of 1.0 denotes 1. -/
theorem one_word : Ideal.ofBits .f32 0x3F800000#32 = 1 := IdealRules.sign_bit.ideal_onePat .f32

/-- The host's spelled-out sigmoid, one divided by one plus the exponential of the negation, with both ones the
    pattern of 1.0, is the sigmoid. -/
theorem spelled_sigmoid (u : EReal) :
    Ideal.div (Ideal.ofBits .f32 0x3F800000#32) (Ideal.ofBits .f32 0x3F800000#32 + Ideal.exp (-u)) = Ideal.logistic u := by
  rw [one_word]; rfl

end Cert.LstmCell

end
-- ==== Proof.KernelIdealGates.lean ====
/-
  The LSTM-cell body's arithmetic, read at one element.

  The body's three named values are, for a block of 2048 batch rows: the 2048 × 512 gate pre-activations
  (two matrix products into a zero accumulator, added, plus the bias row broadcast down the rows), the new
  cell state and the new hidden state (the four 128-wide column bands through sigmoid / tanh and the
  gate products). At the exact instance a narrowing cast is the identity, a matrix product into zero is
  the plain sum over the 128 contracted positions, a same-shape cast does nothing, the broadcast row reads
  its one row, and band g's slice reads column 128·g + q. So if the loaded blocks hold rows ρ(0), ρ(1), …
  of three batch arrays, the stacked weights and the stacked bias, each value at (p, q) is the
  specification's term at row ρ(p), lane q — whatever the row map ρ is.
-/
import proofs.«152260_j74612171866302_2_alg».proof.Proof.Gen.KernelIdeal.Skeleton
import proofs.«152260_j74612171866302_2_alg».proof.Proof.LstmCell
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Lstm

open Cert.KernelIdeal Cert.KernelIdeal.Gen Cert.LstmCell
open Idealize.ShloMosaic Idealize.ShloMosaic.ValueIdx

/-! ## The matrix product of a block with a stacked weight matrix -/

theorem lhs_row (i : S2048x512.Idx) (q : dot_S2048x128_S128x512_S2048x512_1_0_0_1_n_n.contr.Idx) : (dot_S2048x128_S128x512_S2048x512_1_0_0_1_n_n.lhsIdx i q 0).val = (i 0).val := by
  unfold DotDims.lhsIdx
  rw [dif_neg (show ¬(0 : Fin S2048x128.rank) ∈ dot_S2048x128_S128x512_S2048x512_1_0_0_1_n_n.lhsBatch by decide), dif_pos (show (0 : Fin S2048x128.rank) ∈ dot_S2048x128_S128x512_S2048x512_1_0_0_1_n_n.lhsNonContracting by decide)]
  rfl
theorem lhs_contr (i : S2048x512.Idx) (q : dot_S2048x128_S128x512_S2048x512_1_0_0_1_n_n.contr.Idx) : (dot_S2048x128_S128x512_S2048x512_1_0_0_1_n_n.lhsIdx i q 1).val = (q ⟨0, by decide⟩).val :=
  dot_S2048x128_S128x512_S2048x512_1_0_0_1_n_n.lhsIdx_val_of_single rfl i q
theorem rhs_contr (i : S2048x512.Idx) (q : dot_S2048x128_S128x512_S2048x512_1_0_0_1_n_n.contr.Idx) : (dot_S2048x128_S128x512_S2048x512_1_0_0_1_n_n.rhsIdx i q 0).val = (q ⟨0, by decide⟩).val :=
  dot_S2048x128_S128x512_S2048x512_1_0_0_1_n_n.rhsIdx_val_of_single rfl i q
theorem rhs_col (i : S2048x512.Idx) (q : dot_S2048x128_S128x512_S2048x512_1_0_0_1_n_n.contr.Idx) : (dot_S2048x128_S128x512_S2048x512_1_0_0_1_n_n.rhsIdx i q 1).val = (i 1).val := by
  unfold DotDims.rhsIdx
  rw [dif_neg (show ¬(1 : Fin S128x512.rank) ∈ dot_S2048x128_S128x512_S2048x512_1_0_0_1_n_n.rhsBatch by decide), dif_pos (show (1 : Fin S128x512.rank) ∈ dot_S2048x128_S128x512_S2048x512_1_0_0_1_n_n.rhsNonContracting by decide)]
  rfl

/-- A 2048 × 128 block times a 128 × 512 matrix into the zero accumulator, at (p, j): the sum over the 128
    contracted positions. -/
theorem product_at (a : FVec Ideal S2048x128 .bf16) (w : FVec Ideal S128x512 .bf16) (p : Fin 2048) (j : Fin 512) :
    matmul (F := Ideal) dot_S2048x128_S128x512_S2048x512_1_0_0_1_n_n none a w (constant (F := Ideal) S2048x512 .f32 0x00000000#32) (ix2 p j) = ∑ k : Fin 128, a (ix2 p k) * w (ix2 k j) := by
  simp only [matmul]
  rw [Ideal.matmul_constant_zero_apply, ← Equiv.sum_comp (ValueIdx.contrEquiv1 dot_S2048x128_S128x512_S2048x512_1_0_0_1_n_n 128 rfl rfl).symm]
  refine Finset.sum_congr rfl fun k _ => ?_
  have hk := ValueIdx.contrEquiv1_symm_val dot_S2048x128_S128x512_S2048x512_1_0_0_1_n_n 128 rfl rfl k
  have el : dot_S2048x128_S128x512_S2048x512_1_0_0_1_n_n.lhsIdx (ix2 p j) ((ValueIdx.contrEquiv1 dot_S2048x128_S128x512_S2048x512_1_0_0_1_n_n 128 rfl rfl).symm k) = ix2 p k := funext fun a => Fin.ext (by
    match a with
    | ⟨0, _⟩ => exact lhs_row _ _
    | ⟨1, _⟩ => exact (lhs_contr _ _).trans hk)
  have er : dot_S2048x128_S128x512_S2048x512_1_0_0_1_n_n.rhsIdx (ix2 p j) ((ValueIdx.contrEquiv1 dot_S2048x128_S128x512_S2048x512_1_0_0_1_n_n 128 rfl rfl).symm k) = ix2 k j := funext fun a => Fin.ext (by
    match a with
    | ⟨0, _⟩ => exact (rhs_contr _ _).trans hk
    | ⟨1, _⟩ => exact rhs_col _ _)
  rw [el, er]

/-- The bias row, cast to its own shape and broadcast down 2048 rows, at (p, j): the row's entry j. -/
theorem bias_at (v : Vec Ideal S1x512 .f32) (p : Fin 2048) (j : Fin 512) :
    broadcastTo S2048x512 (shapeCast S1x512 v shapeCasts_S1x512_S1x512) broadcasts_S1x512_S2048x512 (ix2 p j) = v (ix2 (0 : Fin 1) j) := by
  rw [broadcastTo_1b_ab_apply, shapeCast_self]

/-! ## The three named values at an element -/

section
variable (v0 v2 v23 : Vec Ideal S2048x128 .f32) (v4 v6 : Vec Ideal S128x512 .bf16) (v11 : Vec Ideal S1x512 .f32)
  (X H C : Rows.Idx → EReal) (WX WH : Stacked.Idx → EReal) (B : StackedBias.Idx → EReal) (ρ : Fin 2048 → Fin 65536)
  (hx : ∀ p k, v0 (ix2 p k) = X (ix2 (ρ p) k)) (hh : ∀ p k, v2 (ix2 p k) = H (ix2 (ρ p) k)) (hc : ∀ p q, v23 (ix2 p q) = C (ix2 (ρ p) q))
  (hwx : ∀ k j, v4 (ix2 k j) = WX (ix2 k j)) (hwh : ∀ k j, v6 (ix2 k j) = WH (ix2 k j)) (hb : ∀ j, v11 (ix2 (0 : Fin 1) j) = B (ix1 j))

include hx hh hwx hwh hb in
/-- The gate pre-activations of the block at (p, j) are the specification's at row ρ(p), stacked column j. -/
theorem gates_at (p : Fin 2048) (j : Fin 512) :
    k0_pay1 (F := Ideal) v0 v2 v4 v6 v11 (ix2 p j) = preact X H WX WH B (ρ p) j := by
  unfold k0_pay1
  show (matmul (F := Ideal) dot_S2048x128_S128x512_S2048x512_1_0_0_1_n_n none (truncf (F := Ideal) .bf16 v0 bitsLt_bf16_f32) (shapeCast S128x512 v4 shapeCasts_S128x512_S128x512) (constant (F := Ideal) S2048x512 .f32 0x00000000#32) (ix2 p j)
      + matmul (F := Ideal) dot_S2048x128_S128x512_S2048x512_1_0_0_1_n_n none (truncf (F := Ideal) .bf16 v2 bitsLt_bf16_f32) (shapeCast S128x512 v6 shapeCasts_S128x512_S128x512) (constant (F := Ideal) S2048x512 .f32 0x00000000#32) (ix2 p j))
      + broadcastTo S2048x512 (shapeCast S1x512 v11 shapeCasts_S1x512_S1x512) broadcasts_S1x512_S2048x512 (ix2 p j) = _
  rw [product_at, product_at, bias_at, shapeCast_self, shapeCast_self]
  simp only [truncf_apply, hx, hh, hwx, hwh, hb]
  rfl

include hx hh hc hwx hwh hb in
/-- The new cell state of the block at (p, q) is the specification's at row ρ(p), lane q. -/
theorem cell_at (p : Fin 2048) (q : Fin 128) :
    k0_pay2 (F := Ideal) v0 v2 v4 v6 v11 v23 (ix2 p q) = newCell X H C WX WH B (ρ p) q := by
  unfold k0_pay2
  show Ideal.logistic (extractStridedSlice S2048x128 ![0, 128] (k0_pay1 (F := Ideal) v0 v2 v4 v6 v11) slices_S2048x512_o0_128_S2048x128 (ix2 p q)) * v23 (ix2 p q)
      + Ideal.logistic (extractStridedSlice S2048x128 ![0, 0] (k0_pay1 (F := Ideal) v0 v2 v4 v6 v11) slices_S2048x512_o0_0_S2048x128 (ix2 p q))
        * Ideal.tanh (extractStridedSlice S2048x128 ![0, 256] (k0_pay1 (F := Ideal) v0 v2 v4 v6 v11) slices_S2048x512_o0_256_S2048x128 (ix2 p q)) = _
  rw [slice2_axis1_apply 128 _ _ p q (forgetCol q) rfl, slice2_axis1_apply 0 _ _ p q (inputCol q) rfl,
    slice2_axis1_apply 256 _ _ p q (cellCol q) rfl,
    gates_at v0 v2 v4 v6 v11 X H WX WH B ρ hx hh hwx hwh hb, gates_at v0 v2 v4 v6 v11 X H WX WH B ρ hx hh hwx hwh hb,
    gates_at v0 v2 v4 v6 v11 X H WX WH B ρ hx hh hwx hwh hb, hc]
  rfl

include hx hh hc hwx hwh hb in
/-- The new hidden state of the block at (p, q) is the specification's at row ρ(p), lane q. -/
theorem hidden_at (p : Fin 2048) (q : Fin 128) :
    k0_pay3 (F := Ideal) v0 v2 v4 v6 v11 v23 (ix2 p q) = newHidden X H C WX WH B (ρ p) q := by
  unfold k0_pay3
  show Ideal.logistic (extractStridedSlice S2048x128 ![0, 384] (k0_pay1 (F := Ideal) v0 v2 v4 v6 v11) slices_S2048x512_o0_384_S2048x128 (ix2 p q))
      * Ideal.tanh (k0_pay2 (F := Ideal) v0 v2 v4 v6 v11 v23 (ix2 p q)) = _
  rw [slice2_axis1_apply 384 _ _ p q (outputCol q) rfl,
    gates_at v0 v2 v4 v6 v11 X H WX WH B ρ hx hh hwx hwh hb, cell_at v0 v2 v23 v4 v6 v11 X H C WX WH B ρ hx hh hc hwx hwh hb]
  rfl

include hx hh hc hwx hwh hb in
/-- The same at any index of the block, by its two coordinates. -/
theorem cell_at_idx (y : S2048x128.Idx) :
    k0_pay2 (F := Ideal) v0 v2 v4 v6 v11 v23 y = newCell X H C WX WH B (ρ (y 0)) (y 1) := by
  obtain ⟨p, q, rfl⟩ : ∃ (p : Fin 2048) (q : Fin 128), y = ix2 p q := ⟨y 0, y 1, eq_ix2 y⟩
  exact cell_at v0 v2 v23 v4 v6 v11 X H C WX WH B ρ hx hh hc hwx hwh hb p q

include hx hh hc hwx hwh hb in
theorem hidden_at_idx (y : S2048x128.Idx) :
    k0_pay3 (F := Ideal) v0 v2 v4 v6 v11 v23 y = newHidden X H C WX WH B (ρ (y 0)) (y 1) := by
  obtain ⟨p, q, rfl⟩ : ∃ (p : Fin 2048) (q : Fin 128), y = ix2 p q := ⟨y 0, y 1, eq_ix2 y⟩
  exact hidden_at v0 v2 v23 v4 v6 v11 X H C WX WH B ρ hx hh hc hwx hwh hb p q

end

end Cert.KernelIdeal.Lstm

end
-- ==== Proof.KernelIdealBlocks.lean ====
/-
  From the 32 write-backs to the two result arrays.

  The region finds the three batch arrays as launched, the two 128 × 512 weight buffers holding the
  stacked, transposed weights (the narrowing cast is the identity on exact values) and the 1 × 512 bias
  buffer holding the stacked bias as one row. Point t stages rows 2048·t … 2048·t + 2047 of each batch
  array and the weight and bias buffers whole, so by the body's arithmetic what it writes back into each
  result array is rows 2048·t … 2048·t + 2047 of the specification's array. Row r of a result lies in the
  block of point r / 2048, so the 32 blocks cover the array and after the run each result array IS the
  specification's array of the launched arguments.
-/
import proofs.«152260_j74612171866302_2_alg».proof.Proof.KernelIdealRun
import proofs.«152260_j74612171866302_2_alg».proof.Proof.KernelIdealGates
import Idealize.ShloMosaic.Lib.StableHlo.Run

set_option maxRecDepth 16384

noncomputable section

namespace Cert.KernelIdeal.Lstm

open Cert.KernelIdeal Cert.KernelIdeal.Gen Cert.LstmCell
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-! ## The arguments, and the stacks the host operations build from them -/

abbrev argX (c : Dev nD) : Rows.Idx → EReal := m ((c : Thread nD τ).loc main_arg0)
abbrev argH (c : Dev nD) : Rows.Idx → EReal := m ((c : Thread nD τ).loc main_arg1)
abbrev argC (c : Dev nD) : Rows.Idx → EReal := m ((c : Thread nD τ).loc main_arg2)

/-- The four input-weight matrices stacked along the rows, transposed: 128 × 512. -/
def stackedWx (c : Dev nD) : Stacked.Idx → EReal :=
  transpose S128x512 [1, 0] (concatenate S512x128 0 [⟨S128x128, (m ((c : Thread nD τ).loc main_arg3) : S128x128.Idx → EReal)⟩, ⟨S128x128, (m ((c : Thread nD τ).loc main_arg6) : S128x128.Idx → EReal)⟩, ⟨S128x128, (m ((c : Thread nD τ).loc main_arg9) : S128x128.Idx → EReal)⟩, ⟨S128x128, (m ((c : Thread nD τ).loc main_arg12) : S128x128.Idx → EReal)⟩] concatenates_S128x128_S128x128_S128x128_S128x128_S512x128_d0) transposes_S512x128_S128x512_1_0
/-- The four hidden-weight matrices stacked along the rows, transposed: 128 × 512. -/
def stackedWh (c : Dev nD) : Stacked.Idx → EReal :=
  transpose S128x512 [1, 0] (concatenate S512x128 0 [⟨S128x128, (m ((c : Thread nD τ).loc main_arg4) : S128x128.Idx → EReal)⟩, ⟨S128x128, (m ((c : Thread nD τ).loc main_arg7) : S128x128.Idx → EReal)⟩, ⟨S128x128, (m ((c : Thread nD τ).loc main_arg10) : S128x128.Idx → EReal)⟩, ⟨S128x128, (m ((c : Thread nD τ).loc main_arg13) : S128x128.Idx → EReal)⟩] concatenates_S128x128_S128x128_S128x128_S128x128_S512x128_d0) transposes_S512x128_S128x512_1_0
/-- The four bias vectors end to end: 512. -/
def stackedBias (c : Dev nD) : StackedBias.Idx → EReal :=
  concatenate S512 0 [⟨S128, (m ((c : Thread nD τ).loc main_arg5) : S128.Idx → EReal)⟩, ⟨S128, (m ((c : Thread nD τ).loc main_arg8) : S128.Idx → EReal)⟩, ⟨S128, (m ((c : Thread nD τ).loc main_arg11) : S128.Idx → EReal)⟩, ⟨S128, (m ((c : Thread nD τ).loc main_arg14) : S128.Idx → EReal)⟩] concatenates_S128_S128_S128_S128_S512_d0

/-- The first weight buffer at the region's entry: the stacked input weights (narrowed: the identity here). -/
theorem wx_at_entry (c : Dev nD) : (atEntry m c main_v4 : S128x512.Idx → EReal) = stackedWx m c := by
  dsimp only [atEntry, hostOps0]; after_results; rfl
/-- The second weight buffer at the region's entry: the stacked hidden weights. -/
theorem wh_at_entry (c : Dev nD) : (atEntry m c main_v6 : S128x512.Idx → EReal) = stackedWh m c := by
  dsimp only [atEntry, hostOps0]; after_results; rfl
/-- The bias buffer at the region's entry: the stacked bias as one row. -/
theorem bias_at_entry (c : Dev nD) : (atEntry m c main_v7 : S1x512.Idx → EReal) = shapeCast S1x512 (stackedBias m c) shapeCasts_S512_S1x512 := by
  dsimp only [atEntry, hostOps0]; after_results; rfl

/-! ## Where each window's block sits -/

theorem point_lt (t : Fin cfg0.N) : t.val < 32 := Nat.lt_of_lt_of_eq t.isLt N_0

/-- The array row that row p of point t's block is. -/
def blockRow (t : Fin cfg0.N) (p : Fin 2048) : Fin 65536 :=
  ⟨t.val * 2048 + p.val, by have := point_lt t; have := p.isLt; omega⟩

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = t.val ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)
theorem index6 : ∀ t : Fin cfg0.N, win0_6.index t (0 : Fin 2) = t.val ∧ win0_6.index t (1 : Fin 2) = 0 :=
  (by decide +kernel : ∀ t : Fin grid0.N, _)
theorem index7 : ∀ t : Fin cfg0.N, win0_7.index t (0 : Fin 2) = t.val ∧ win0_7.index t (1 : Fin 2) = 0 :=
  (by decide +kernel : ∀ t : Fin grid0.N, _)

theorem zeros : (![0, 0] : Fin 2 → Nat) = fun _ => 0 := funext fun a => by fin_cases a <;> rfl

/-- Row p of point t's block of `main_arg0` is row 2048·t + p of the array as launched. -/
theorem x_block (c : Dev nD) (t : Fin cfg0.N) (p : Fin 2048) (k : Fin 128) :
    blockAt m c 0 t (ix2 p k) = (m ((c : Thread nD τ).loc main_arg0) : Rows.Idx → EReal) (ix2 (blockRow t p) k) := by
  obtain ⟨e0, e1⟩ := index0 t
  show atEntry m c main_arg0 (((cfg0.win 0).blk t).view.emb (ix2 p k)) = _
  rw [kept_through_prefix m c main_arg0 (by decide)]
  refine congrArg _ (funext fun a => Fin.ext ?_)
  match a with
  | ⟨0, _⟩ => show win0_0.index t (0 : Fin 2) * 2048 + 1 * p.val = t.val * 2048 + p.val; omega
  | ⟨1, _⟩ => show win0_0.index t (1 : Fin 2) * 128 + 1 * k.val = k.val; omega

/-- Row p of point t's block of `main_arg1` is row 2048·t + p of the array as launched. -/
theorem h_block (c : Dev nD) (t : Fin cfg0.N) (p : Fin 2048) (k : Fin 128) :
    blockAt m c 1 t (ix2 p k) = (m ((c : Thread nD τ).loc main_arg1) : Rows.Idx → EReal) (ix2 (blockRow t p) k) := by
  obtain ⟨e0, e1⟩ := index1 t
  show atEntry m c main_arg1 (((cfg0.win 1).blk t).view.emb (ix2 p k)) = _
  rw [kept_through_prefix m c main_arg1 (by decide)]
  refine congrArg _ (funext fun a => Fin.ext ?_)
  match a with
  | ⟨0, _⟩ => show win0_1.index t (0 : Fin 2) * 2048 + 1 * p.val = t.val * 2048 + p.val; omega
  | ⟨1, _⟩ => show win0_1.index t (1 : Fin 2) * 128 + 1 * k.val = k.val; omega

/-- Row p of point t's block of `main_arg2` is row 2048·t + p of the array as launched. -/
theorem c_block (c : Dev nD) (t : Fin cfg0.N) (p : Fin 2048) (k : Fin 128) :
    blockAt m c 2 t (ix2 p k) = (m ((c : Thread nD τ).loc main_arg2) : Rows.Idx → EReal) (ix2 (blockRow t p) k) := by
  obtain ⟨e0, e1⟩ := index2 t
  show atEntry m c main_arg2 (((cfg0.win 2).blk t).view.emb (ix2 p k)) = _
  rw [kept_through_prefix m c main_arg2 (by decide)]
  refine congrArg _ (funext fun a => Fin.ext ?_)
  match a with
  | ⟨0, _⟩ => show win0_2.index t (0 : Fin 2) * 2048 + 1 * p.val = t.val * 2048 + p.val; omega
  | ⟨1, _⟩ => show win0_2.index t (1 : Fin 2) * 128 + 1 * k.val = k.val; omega

/-- The whole of `main_v4` is staged at every point: the stacked, transposed weights. -/
theorem wx_block (c : Dev nD) (t : Fin cfg0.N) (k : Fin 128) (j : Fin 512) :
    blockAt m c 3 t (ix2 k j) = stackedWx m c (ix2 k j) := by
  obtain ⟨e0, e1⟩ := index3 t
  show atEntry m c main_v4 (((cfg0.win 3).blk t).view.emb (ix2 k j)) = _
  rw [wx_at_entry]
  refine congrArg _ (funext fun a => Fin.ext ?_)
  match a with
  | ⟨0, _⟩ => show win0_3.index t (0 : Fin 2) * 128 + 1 * k.val = k.val; omega
  | ⟨1, _⟩ => show win0_3.index t (1 : Fin 2) * 512 + 1 * j.val = j.val; omega

/-- The whole of `main_v6` is staged at every point: the stacked, transposed weights. -/
theorem wh_block (c : Dev nD) (t : Fin cfg0.N) (k : Fin 128) (j : Fin 512) :
    blockAt m c 4 t (ix2 k j) = stackedWh m c (ix2 k j) := by
  obtain ⟨e0, e1⟩ := index4 t
  show atEntry m c main_v6 (((cfg0.win 4).blk t).view.emb (ix2 k j)) = _
  rw [wh_at_entry]
  refine congrArg _ (funext fun a => Fin.ext ?_)
  match a with
  | ⟨0, _⟩ => show win0_4.index t (0 : Fin 2) * 128 + 1 * k.val = k.val; omega
  | ⟨1, _⟩ => show win0_4.index t (1 : Fin 2) * 512 + 1 * j.val = j.val; omega

/-- The whole bias row is staged at every point: entry j of the stacked bias. -/
theorem bias_block (c : Dev nD) (t : Fin cfg0.N) (j : Fin 512) :
    blockAt m c 5 t (ix2 (0 : Fin 1) j) = stackedBias m c (ix1 j) := by
  obtain ⟨e0, e1⟩ := index5 t
  show atEntry m c main_v7 (((cfg0.win 5).blk t).view.emb (ix2 (0 : Fin 1) j)) = _
  rw [bias_at_entry]
  have hemb : ((cfg0.win 5).blk t).view.emb (ix2 (0 : Fin 1) j) = ix2 (0 : Fin 1) j := funext fun a => Fin.ext (by
    match a with
    | ⟨0, _⟩ => show win0_5.index t (0 : Fin 2) * 1 + 1 * 0 = 0; omega
    | ⟨1, _⟩ => show win0_5.index t (1 : Fin 2) * 512 + 1 * j.val = j.val; omega)
  rw [hemb, shapeCast_a_1a_apply]

/-! ## What each point writes back, and the arrays after the run -/

/-- What point t writes back into `main_v8_0` is block t of the specification's array. -/
theorem hidden_written (c : Dev nD) (t : Fin cfg0.N) :
    (proofData m 0 c).flushed 6 t = ((cfg0.win 6).blk t).view.read (Elt Ideal) (hiddenArray (argX m c) (argH m c) (argC m c) (stackedWx m c) (stackedWh m c) (stackedBias m c)) := by
  show (cfg0.win 6).cut (grid0.coords t) ((proofData m 0 c).after 6 t) = _
  rw [after6]
  unfold hiddenOut
  rw [View.canon_unit_zero zeros]
  simp only [View.ld_unit_zero (S := S2048x128) zeros, View.ld_unit_zero (S := S128x512) zeros, View.ld_unit_zero (S := S1x512) zeros]
  obtain ⟨e0, e1⟩ := index6 t
  funext y
  refine (hidden_at_idx (blockAt m c 0 t) (blockAt m c 1 t) (blockAt m c 2 t) (blockAt m c 3 t) (blockAt m c 4 t) (blockAt m c 5 t)
    (argX m c) (argH m c) (argC m c) (stackedWx m c) (stackedWh m c) (stackedBias m c) (blockRow t)
    (x_block m c t) (h_block m c t) (c_block m c t) (wx_block m c t) (wh_block m c t) (bias_block m c t)
    ((cfg0.win 6).xinj (grid0.coords t) y)).trans ?_
  show _ = newHidden (argX m c) (argH m c) (argC m c) (stackedWx m c) (stackedWh m c) (stackedBias m c) ((((cfg0.win 6).blk t).view.emb y) 0) ((((cfg0.win 6).blk t).view.emb y) 1)
  refine congrArg₂ (newHidden (argX m c) (argH m c) (argC m c) (stackedWx m c) (stackedWh m c) (stackedBias m c)) (Fin.ext ?_) (Fin.ext ?_)
  · show t.val * 2048 + (y 0).val = win0_6.index t (0 : Fin 2) * 2048 + 1 * (y 0).val; omega
  · show (y 1).val = win0_6.index t (1 : Fin 2) * 128 + 1 * (y 1).val; omega

/-- An index of `main_v8_0` lies in point t's block iff each coordinate lies in the block's range on its axis. -/
theorem hidden_in_block (t : Fin cfg0.N) (i : S65536x128.Idx) :
    i ∈ ((cfg0.win 6).blk t).view.set ↔ ∀ a : Fin 2, win0_6.index t a * S2048x128.size a ≤ (i a).val ∧ (i a).val < win0_6.index t a * S2048x128.size a + S2048x128.size a := by
  show i ∈ ((View.whole main_v8_0).slice (win0_6.rect t)).set ↔ _
  rw [View.set_slice_whole, Rect.mem_set_unit]
  exact Iff.rfl

/-- Every row r of `main_v8_0` is written back by point r / 2048. -/
theorem hidden_covered (i : S65536x128.Idx) :
    ∃ t : Fin cfg0.N, (cfg0.win 6).flush t = true ∧ i ∈ ((cfg0.win 6).blk t).view.set := by
  have hi0 : (i 0).val < 65536 := (i 0).isLt
  have hi1 : (i 1).val < 128 := (i 1).isLt
  obtain ⟨t, ht⟩ : ∃ t : Fin cfg0.N, t.val = (i 0).val / 2048 := ⟨⟨(i 0).val / 2048, by rw [show cfg0.N = 32 from N_0]; omega⟩, rfl⟩
  obtain ⟨e0, e1⟩ := index6 t
  refine ⟨t, flush0_6 t, ?_⟩
  rw [hidden_in_block]
  intro a
  match a with
  | ⟨0, _⟩ => show win0_6.index t (0 : Fin 2) * 2048 ≤ (i 0).val ∧ (i 0).val < win0_6.index t (0 : Fin 2) * 2048 + 2048; omega
  | ⟨1, _⟩ => show win0_6.index t (1 : Fin 2) * 128 ≤ (i 1).val ∧ (i 1).val < win0_6.index t (1 : Fin 2) * 128 + 128; omega

/-- `main_v8_0` after the run is the specification's array. -/
theorem hidden_final (c : Dev nD) : (proofData m 0 c).arrAt 6 cfg0.N = hiddenArray (argX m c) (argH m c) (argC m c) (stackedWx m c) (stackedWh m c) (stackedBias m c) :=
  (proofData m 0 c).arrAt_eq_of_cover 6 _ (fun t _ => hidden_written m c t) hidden_covered

/-- What point t writes back into `main_v8_1` is block t of the specification's array. -/
theorem cell_written (c : Dev nD) (t : Fin cfg0.N) :
    (proofData m 0 c).flushed 7 t = ((cfg0.win 7).blk t).view.read (Elt Ideal) (cellArray (argX m c) (argH m c) (argC m c) (stackedWx m c) (stackedWh m c) (stackedBias m c)) := by
  show (cfg0.win 7).cut (grid0.coords t) ((proofData m 0 c).after 7 t) = _
  rw [after7]
  unfold cellOut
  rw [View.canon_unit_zero zeros]
  simp only [View.ld_unit_zero (S := S2048x128) zeros, View.ld_unit_zero (S := S128x512) zeros, View.ld_unit_zero (S := S1x512) zeros]
  obtain ⟨e0, e1⟩ := index7 t
  funext y
  refine (cell_at_idx (blockAt m c 0 t) (blockAt m c 1 t) (blockAt m c 2 t) (blockAt m c 3 t) (blockAt m c 4 t) (blockAt m c 5 t)
    (argX m c) (argH m c) (argC m c) (stackedWx m c) (stackedWh m c) (stackedBias m c) (blockRow t)
    (x_block m c t) (h_block m c t) (c_block m c t) (wx_block m c t) (wh_block m c t) (bias_block m c t)
    ((cfg0.win 7).xinj (grid0.coords t) y)).trans ?_
  show _ = newCell (argX m c) (argH m c) (argC m c) (stackedWx m c) (stackedWh m c) (stackedBias m c) ((((cfg0.win 7).blk t).view.emb y) 0) ((((cfg0.win 7).blk t).view.emb y) 1)
  refine congrArg₂ (newCell (argX m c) (argH m c) (argC m c) (stackedWx m c) (stackedWh m c) (stackedBias m c)) (Fin.ext ?_) (Fin.ext ?_)
  · show t.val * 2048 + (y 0).val = win0_7.index t (0 : Fin 2) * 2048 + 1 * (y 0).val; omega
  · show (y 1).val = win0_7.index t (1 : Fin 2) * 128 + 1 * (y 1).val; omega

/-- An index of `main_v8_1` lies in point t's block iff each coordinate lies in the block's range on its axis. -/
theorem cell_in_block (t : Fin cfg0.N) (i : S65536x128.Idx) :
    i ∈ ((cfg0.win 7).blk t).view.set ↔ ∀ a : Fin 2, win0_7.index t a * S2048x128.size a ≤ (i a).val ∧ (i a).val < win0_7.index t a * S2048x128.size a + S2048x128.size a := by
  show i ∈ ((View.whole main_v8_1).slice (win0_7.rect t)).set ↔ _
  rw [View.set_slice_whole, Rect.mem_set_unit]
  exact Iff.rfl

/-- Every row r of `main_v8_1` is written back by point r / 2048. -/
theorem cell_covered (i : S65536x128.Idx) :
    ∃ t : Fin cfg0.N, (cfg0.win 7).flush t = true ∧ i ∈ ((cfg0.win 7).blk t).view.set := by
  have hi0 : (i 0).val < 65536 := (i 0).isLt
  have hi1 : (i 1).val < 128 := (i 1).isLt
  obtain ⟨t, ht⟩ : ∃ t : Fin cfg0.N, t.val = (i 0).val / 2048 := ⟨⟨(i 0).val / 2048, by rw [show cfg0.N = 32 from N_0]; omega⟩, rfl⟩
  obtain ⟨e0, e1⟩ := index7 t
  refine ⟨t, flush0_7 t, ?_⟩
  rw [cell_in_block]
  intro a
  match a with
  | ⟨0, _⟩ => show win0_7.index t (0 : Fin 2) * 2048 ≤ (i 0).val ∧ (i 0).val < win0_7.index t (0 : Fin 2) * 2048 + 2048; omega
  | ⟨1, _⟩ => show win0_7.index t (1 : Fin 2) * 128 ≤ (i 1).val ∧ (i 1).val < win0_7.index t (1 : Fin 2) * 128 + 128; omega

/-- `main_v8_1` after the run is the specification's array. -/
theorem cell_final (c : Dev nD) : (proofData m 0 c).arrAt 7 cfg0.N = cellArray (argX m c) (argH m c) (argC m c) (stackedWx m c) (stackedWh m c) (stackedBias m c) :=
  (proofData m 0 c).arrAt_eq_of_cover 7 _ (fun t _ => cell_written m c t) cell_covered

/-! ## The run, with both results named -/

/-- Every weakly fair execution of the idealized kernel program terminates; the first result array ends at the
    specification's new hidden state and the second at its new cell state, of the arguments as launched and the
    stacks built from them; every argument array ends as launched. -/
theorem run_value : θ_run defs (onTc (τ := τ) (main (F := Ideal))) ⟨m, fun _ => 0, ρ⟩ (fun r => ∀ c : Dev nD,
      r.2.mem ((c.tc : Thread nD τ).loc main_v8_0) = hiddenArray (argX m c) (argH m c) (argC m c) (stackedWx m c) (stackedWh m c) (stackedBias m c)
      ∧ r.2.mem ((c.tc : Thread nD τ).loc main_v8_1) = cellArray (argX m c) (argH m c) (argC m c) (stackedWx m c) (stackedWh m c) (stackedBias m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(h c).1.trans (hidden_final m c), (h c).2.1.trans (cell_final m c), (h c).2.2⟩) (run_named m ρ)

end Cert.KernelIdeal.Lstm

end
-- ==== Proof.ReferenceIsCell.lean ====
/-
  The reference computes the LSTM cell of the specification.

  The reference stacks the weights and biases exactly as the kernel's wrapper does, multiplies the whole
  batch by the two transposed stacks, adds the bias row to every batch row, cuts the 512 columns into the
  four gate bands and applies the gates, with each sigmoid spelled out as 1 / (1 + exp(−u)). Read at a
  row r and a lane q this is, operation by operation, the specification's term: the two matrix products
  are the sums over the 128 contracted positions, the broadcast bias is the stacked bias at the column,
  band g's slice reads column 128·g + q, and the spelled-out sigmoid is the sigmoid.

  The stacked, transposed weights and the stacked bias are never opened: the specification takes them as
  they are.
-/
import proofs.«152260_j74612171866302_2_alg».proof.Proof.Gen.ReferenceIdeal.Read
import proofs.«152260_j74612171866302_2_alg».proof.Proof.LstmCell

noncomputable section

namespace Cert.ReferenceIdeal.CellValue

open Cert.ReferenceIdeal Cert.ReferenceIdeal.Read Cert.LstmCell
open Idealize.ShloMosaic Idealize.ShloMosaic.ValueIdx

/-! ## Where the composed index maps point -/

theorem xrow (r : Fin 65536) (j : Fin 512) (k : Fin 128) : lidx_main_v4 (ix2 r j) k = ix2 r k := funext fun a => Fin.ext (by match a with | ⟨0, _⟩ => rfl | ⟨1, _⟩ => rfl)
theorem wxcol (r : Fin 65536) (j : Fin 512) (k : Fin 128) : ridx_main_v4 (ix2 r j) k = ix2 k j := funext fun a => Fin.ext (by match a with | ⟨0, _⟩ => rfl | ⟨1, _⟩ => rfl)
theorem hrow (r : Fin 65536) (j : Fin 512) (k : Fin 128) : lidx_main_v6 (ix2 r j) k = ix2 r k := funext fun a => Fin.ext (by match a with | ⟨0, _⟩ => rfl | ⟨1, _⟩ => rfl)
theorem whcol (r : Fin 65536) (j : Fin 512) (k : Fin 128) : ridx_main_v6 (ix2 r j) k = ix2 k j := funext fun a => Fin.ext (by match a with | ⟨0, _⟩ => rfl | ⟨1, _⟩ => rfl)
theorem biascol (r : Fin 65536) (j : Fin 512) : idx_main_v8 (idx_main_v9 (ix2 r j)) = ix1 j :=
  funext fun a => Fin.ext (by match a with | ⟨0, _⟩ => rfl)
theorem inputBand (r : Fin 65536) (q : Fin 128) : idx_main_v11 (ix2 r q) = ix2 r (inputCol q) :=
  funext fun a => Fin.ext (by match a with | ⟨0, _⟩ => rfl | ⟨1, _⟩ => exact (Nat.zero_add _).symm)
theorem forgetBand (r : Fin 65536) (q : Fin 128) : idx_main_v12 (ix2 r q) = ix2 r (forgetCol q) := funext fun a => Fin.ext (by match a with | ⟨0, _⟩ => rfl | ⟨1, _⟩ => rfl)
theorem cellBand (r : Fin 65536) (q : Fin 128) : idx_main_v13 (ix2 r q) = ix2 r (cellCol q) := funext fun a => Fin.ext (by match a with | ⟨0, _⟩ => rfl | ⟨1, _⟩ => rfl)
theorem outputBand (r : Fin 65536) (q : Fin 128) : idx_main_v14 (ix2 r q) = ix2 r (outputCol q) := funext fun a => Fin.ext (by match a with | ⟨0, _⟩ => rfl | ⟨1, _⟩ => rfl)

section
variable (x0 x1 x2 : (⟨S65536x128, .f32⟩ : BufTy).Contents (Elt Ideal))
  (x3 x4 x6 x7 x9 x10 x12 x13 : (⟨S128x128, .f32⟩ : BufTy).Contents (Elt Ideal))
  (x5 x8 x11 x14 : (⟨S128, .f32⟩ : BufTy).Contents (Elt Ideal))

/-- The reference's gate pre-activations at row `r`, stacked column `j`: both products as sums, plus the bias. -/
theorem preact_read (r : Fin 65536) (j : Fin 512) :
    val_main_v10 (F := Ideal) x0 x1 x3 x4 x5 x6 x7 x8 x9 x10 x11 x12 x13 x14 (ix2 r j) = preact x0 x1 (val_main_v3 (F := Ideal) x3 x6 x9 x12) (val_main_v5 (F := Ideal) x4 x7 x10 x13) (val_main_v2 (F := Ideal) x5 x8 x11 x14) r j := by
  rw [val_main_v10_apply, val_main_v7_apply, val_main_v4_apply, val_main_v6_apply, val_main_v9_apply, val_main_v8_apply]
  simp only [xrow, wxcol, hrow, whcol, biascol, Ideal.addf_def]
  rfl

/-- The reference's new cell state is the specification's. -/
theorem cell_eq : val_main_v36 (F := Ideal) x0 x1 x2 x3 x4 x5 x6 x7 x8 x9 x10 x11 x12 x13 x14 = cellArray x0 x1 x2 (val_main_v3 (F := Ideal) x3 x6 x9 x12) (val_main_v5 (F := Ideal) x4 x7 x10 x13) (val_main_v2 (F := Ideal) x5 x8 x11 x14) := by
  funext i
  obtain ⟨r, q, rfl⟩ : ∃ (r : Fin 65536) (q : Fin 128), i = ix2 r q := ⟨i 0, i 1, eq_ix2 i⟩
  simp only [val_main_v36_apply, val_main_v34_apply, val_main_v35_apply, val_main_v26_apply, val_main_v25_apply, val_main_cst_2_apply,
    val_main_v24_apply, val_main_v23_apply, val_main_cst_1_apply, val_main_v22_apply, val_main_v21_apply, val_main_v12_apply,
    val_main_v20_apply, val_main_v19_apply, val_main_cst_0_apply, val_main_v18_apply, val_main_v17_apply, val_main_cst_apply,
    val_main_v16_apply, val_main_v15_apply, val_main_v11_apply, val_main_v27_apply, val_main_v13_apply,
    inputBand, forgetBand, cellBand, preact_read,
    Ideal.addf_def, Ideal.mulf_def, Ideal.hostDivf_def, Ideal.ofBits_def, Ideal.hostUnary_exp_def, Ideal.hostNegf_def, Ideal.negf_def,
    Ideal.hostUnary_tanh_def, spelled_sigmoid]
  rfl

/-- The reference's new hidden state is the specification's. -/
theorem hidden_eq : val_main_v38 (F := Ideal) x0 x1 x2 x3 x4 x5 x6 x7 x8 x9 x10 x11 x12 x13 x14 = hiddenArray x0 x1 x2 (val_main_v3 (F := Ideal) x3 x6 x9 x12) (val_main_v5 (F := Ideal) x4 x7 x10 x13) (val_main_v2 (F := Ideal) x5 x8 x11 x14) := by
  funext i
  obtain ⟨r, q, rfl⟩ : ∃ (r : Fin 65536) (q : Fin 128), i = ix2 r q := ⟨i 0, i 1, eq_ix2 i⟩
  rw [val_main_v38_apply, val_main_v37_apply, cell_eq]
  simp only [val_main_v33_apply, val_main_v32_apply, val_main_cst_4_apply, val_main_v31_apply, val_main_v30_apply, val_main_cst_3_apply,
    val_main_v29_apply, val_main_v28_apply, val_main_v14_apply, outputBand, preact_read,
    Ideal.addf_def, Ideal.mulf_def, Ideal.hostDivf_def, Ideal.ofBits_def, Ideal.hostUnary_exp_def, Ideal.hostNegf_def, Ideal.negf_def,
    Ideal.hostUnary_tanh_def, spelled_sigmoid]
  rfl

end

end Cert.ReferenceIdeal.CellValue

end
-- ==== Proof.lean ====
/-
  The LSTM cell: the Pallas kernel, its idealization and the jnp reference.

  Both programs stack the four gates' weights and biases, form the gate pre-activations
  x·Wx + h·Wh + bias, and apply  c' = σ(f)·c + σ(i)·tanh(g),  h' = σ(o)·tanh(c').  The kernel does it 2048
  batch rows at a time over a grid of 32 points, with the sigmoid as one operation; the reference does it
  on the whole batch with the sigmoid spelled out as 1 / (1 + exp(−u)). On the extended reals these are
  the same terms in the same grouping, so the two results agree element by element for every input — the
  finiteness precondition is not used.

  Frames: each kernel program runs the eight host operations that build the stacks, then the region, whose
  body at every point runs on its staging buffers to its end; nothing writes an argument array. The
  reference is a straight line of host operations. The idealization rewrote nothing, so `preserves` has
  nothing to state.
-/
import proofs.«152260_j74612171866302_2_alg».proof.Defs
import proofs.«152260_j74612171866302_2_alg».proof.Proof.Gen.Kernel
import proofs.«152260_j74612171866302_2_alg».proof.Proof.Gen.KernelIdeal
import proofs.«152260_j74612171866302_2_alg».proof.Proof.Gen.ReferenceIdeal
import proofs.«152260_j74612171866302_2_alg».proof.Proof.Gen.Pre_finite_inputs
import proofs.«152260_j74612171866302_2_alg».proof.Proof.Gen.ReferenceIdeal.Run
import proofs.«152260_j74612171866302_2_alg».proof.Proof.Gen.ReferenceIdeal.Read
import proofs.«152260_j74612171866302_2_alg».proof.Proof.KernelRun
import proofs.«152260_j74612171866302_2_alg».proof.Proof.KernelIdealBlocks
import proofs.«152260_j74612171866302_2_alg».proof.Proof.ReferenceIsCell
import Idealize.ShloMosaic.Adequacy
import Idealize.ShloMosaic.Init

noncomputable section

namespace Cert.Proof

open Idealize.ShloMosaic Idealize.ShloMosaic.TcCoe Idealize.SL.Sem Cert.LstmCell

/-- The kernel program as printed runs to its end and leaves its fifteen arguments unchanged. -/
theorem frame_kernel : Cert.frame_Kernel := fun m ρ _ => Cert.Kernel.Lstm.frame (F := Bits) m ρ

/-- So does its idealization. -/
theorem frame_kernel_ideal : Cert.frame_KernelIdeal := fun m ρ _ => Cert.KernelIdeal.Lstm.frame (F := Ideal) m ρ

/-- The reference is a line of host operations: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the arguments both idealized programs end with the specification's new hidden
    state and new cell state of those arguments: the kernel's two result arrays by its 32 write-backs, the
    reference's two results by reading its operations one at a time. -/
theorem algebraic : Cert.algebraic_KernelIdeal_ReferenceIdeal := by
  intro m ρ m' ρ' _ hagree
  refine ⟨fun c => hiddenArray (Cert.KernelIdeal.Lstm.argX m c) (Cert.KernelIdeal.Lstm.argH m c) (Cert.KernelIdeal.Lstm.argC m c)
      (Cert.KernelIdeal.Lstm.stackedWx m c) (Cert.KernelIdeal.Lstm.stackedWh m c) (Cert.KernelIdeal.Lstm.stackedBias m c),
    fun c => cellArray (Cert.KernelIdeal.Lstm.argX m c) (Cert.KernelIdeal.Lstm.argH m c) (Cert.KernelIdeal.Lstm.argC m c)
      (Cert.KernelIdeal.Lstm.stackedWx m c) (Cert.KernelIdeal.Lstm.stackedWh m c) (Cert.KernelIdeal.Lstm.stackedBias m c),
    Cert.KernelIdeal.Lstm.run_value m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14⟩ := hagree c
    rw [Cert.ReferenceIdeal.Read.val_main_v38_eq, Cert.ReferenceIdeal.CellValue.hidden_eq, h0, h1, h2, h3, h4, h5, h6, h7, h8, h9, h10, h11, h12, h13, h14]
    rfl
  · obtain ⟨h0, h1, h2, h3, h4, h5, h6, h7, h8, h9, h10, h11, h12, h13, h14⟩ := hagree c
    rw [Cert.ReferenceIdeal.Read.val_main_v36_eq, Cert.ReferenceIdeal.CellValue.cell_eq, h0, h1, h2, h3, h4, h5, h6, h7, h8, h9, h10, h11, h12, h13, h14]
    rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
